-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S64x64 : Shape := ⟨2, ![64, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S16384x64 .f32) (main_arg1 : FVec F S16384x64 .f32) (main_arg2 : FVec F S64x64 .f32) (main_arg3 : FVec F S64x64 .f32) (main_arg4 : FVec F S64x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S16384x64 : Shape := ⟨2, ![16384, 64]⟩
abbrev S64x64 : Shape := ⟨2, ![64, 64]⟩
abbrev S_ : Shape := ⟨0, ![]⟩
abbrev S2048x64 : Shape := ⟨2, ![2048, 64]⟩
abbrev S1024x64 : Shape := ⟨2, ![1024, 64]⟩
abbrev S2048x1 : Shape := ⟨2, ![2048, 1]⟩
abbrev S2048x1024 : Shape := ⟨2, ![2048, 1024]⟩
abbrev S2048 : Shape := ⟨1, ![2048]⟩

abbrev nBuf : Space → Nat
  | .hbm => 15
  | .vmem => 11
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S16384x64, .f32⟩
  | .hbm, ⟨6, _⟩ => ⟨S_, .f32⟩
  | .hbm, ⟨7, _⟩ => ⟨S16384x64, .f32⟩
  | .hbm, ⟨8, _⟩ => ⟨S16384x64, .f32⟩
  | .hbm, ⟨9, _⟩ => ⟨S16384x64, .f32⟩
  | .hbm, ⟨10, _⟩ => ⟨S16384x64, .f32⟩
  | .hbm, ⟨11, _⟩ => ⟨S16384x64, .bf16⟩
  | .hbm, ⟨12, _⟩ => ⟨S16384x64, .bf16⟩
  | .hbm, ⟨13, _⟩ => ⟨S16384x64, .bf16⟩
  | .hbm, ⟨14, _⟩ => ⟨S16384x64, .f32⟩
  | .local _ .vmem, ⟨0, _⟩ => ⟨S2048x64, .bf16⟩
  | .local _ .vmem, ⟨1, _⟩ => ⟨S2048x64, .bf16⟩
  | .local _ .vmem, ⟨2, _⟩ => ⟨S1024x64, .bf16⟩
  | .local _ .vmem, ⟨3, _⟩ => ⟨S1024x64, .bf16⟩
  | .local _ .vmem, ⟨4, _⟩ => ⟨S1024x64, .bf16⟩
  | .local _ .vmem, ⟨5, _⟩ => ⟨S1024x64, .bf16⟩
  | .local _ .vmem, ⟨6, _⟩ => ⟨S2048x64, .f32⟩
  | .local _ .vmem, ⟨7, _⟩ => ⟨S2048x64, .f32⟩
  | .local _ .vmem, ⟨8, _⟩ => ⟨S2048x1, .f32⟩
  | .local _ .vmem, ⟨9, _⟩ => ⟨S2048x1, .f32⟩
  | .local _ .vmem, ⟨10, _⟩ => ⟨S2048x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v39 : BitVec 1 := Scalar.cmpi .eq arg1 c15_i32
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S16384x64 : S_.BroadcastsInDim S16384x64 (![] : Fin 0 → Fin S16384x64.rank)
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S2048x1024_S2048 : S2048x1024.Reduces [1] S2048
  shapeCasts_S2048_S2048x1 : S2048.ShapeCasts S2048x1
  broadcasts_S2048x1_S2048x1024 : S2048x1.Broadcasts S2048x1024
  broadcasts_S2048x1_S2048x64 : S2048x1.Broadcasts S2048x64
  dot_S16384x64_S64x64_S16384x64_1_0_0_1_n_n_wf : DotDims.WF S16384x64 S64x64 S16384x64 [1] [0] [0] [1] [] []
  dot_S2048x64_S1024x64_S2048x1024_1_1_0_0_n_n_wf : DotDims.WF S2048x64 S1024x64 S2048x1024 [1] [1] [0] [0] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .bf16 = 32 ∨ (Rect.block (s := S16384x64) S2048x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S16384x64.size a
  hwx0_1 : ∀ i : grid0.Coords, EltTy.bits .bf16 = 32 ∨ (Rect.block (s := S16384x64) S1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S16384x64.size a
  hwx0_2 : ∀ i : grid0.Coords, EltTy.bits .bf16 = 32 ∨ (Rect.block (s := S16384x64) S1024x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S16384x64.size a
  hwx0_3 : ∀ i : grid0.Coords, EltTy.bits .f32 = 32 ∨ (Rect.block (s := S16384x64) S2048x64.size (cc0_transform_3 i) (hinb0_3 i)).WholeWords (EltTy.packing .f32)

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_v5) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x64 : Shape := ⟨2, ![16384, 64]⟩
abbrev S64x64 : Shape := ⟨2, ![64, 64]⟩
abbrev S16384x16384 : Shape := ⟨2, ![16384, 16384]⟩
abbrev S_ : Shape := ⟨0, ![]⟩
abbrev S16384 : Shape := ⟨1, ![16384]⟩
abbrev S16384x1 : Shape := ⟨2, ![16384, 1]⟩

abbrev nBuf : Space → Nat
  | .hbm => 28
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S16384x64, .f32⟩
  | .hbm, ⟨6, _⟩ => ⟨S16384x64, .f32⟩
  | .hbm, ⟨7, _⟩ => ⟨S16384x64, .f32⟩
  | .hbm, ⟨8, _⟩ => ⟨S16384x16384, .f32⟩
  | .hbm, ⟨9, _⟩ => ⟨S_, .f32⟩
  | .hbm, ⟨10, _⟩ => ⟨S_, .f32⟩
  | .hbm, ⟨11, _⟩ => ⟨S16384x16384, .f32⟩
  | .hbm, ⟨12, _⟩ => ⟨S16384x16384, .f32⟩
  | .hbm, ⟨13, _⟩ => ⟨S_, .f32⟩
  | .hbm, ⟨14, _⟩ => ⟨S16384, .f32⟩
  | .hbm, ⟨15, _⟩ => ⟨S_, .f32⟩
  | .hbm, ⟨16, _⟩ => ⟨S16384, .f32⟩
  | .hbm, ⟨17, _⟩ => ⟨S16384, .f32⟩
  | .hbm, ⟨18, _⟩ => ⟨S16384x1, .f32⟩
  | .hbm, ⟨19, _⟩ => ⟨S16384x16384, .f32⟩
  | .hbm, ⟨20, _⟩ => ⟨S16384x16384, .f32⟩
  | .hbm, ⟨21, _⟩ => ⟨S16384x16384, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S16384x16384, .f32⟩
  | .hbm, ⟨26, _⟩ => ⟨S16384x16384, .f32⟩
  | .hbm, ⟨27, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S16384x16384 : S_.BroadcastsInDim S16384x16384 (![] : Fin 0 → Fin S16384x16384.rank)
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  dot_S16384x64_S64x64_S16384x64_1_0_0_1_n_n_wf : DotDims.WF S16384x64 S64x64 S16384x64 [1] [0] [0] [1] [] []
  dot_S16384x64_S16384x64_S16384x16384_1_1_0_0_n_n_wf : DotDims.WF S16384x64 S16384x64 S16384x16384 [1] [1] [0] [0] [] []
  dot_S16384x16384_S16384x64_S16384x64_1_0_0_1_n_n_wf : DotDims.WF S16384x16384 S16384x64 S16384x64 [1] [0] [0] [1] [] []

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S16384x64_S16384x16384_1_1_0_0_n_n : DotDims S16384x64 S16384x64 S16384x16384 where
  lhsContracting := [1]
  rhsContracting := [1]
  lhsNonContracting := [0]
  rhsNonContracting := [0]
  lhsBatch := []
  rhsBatch := []
  wf := dot_S16384x64_S16384x64_S16384x16384_1_1_0_0_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.Pieces.lean ====
/-
  What one grid point leaves behind, as pure functions of what it found.

  The kernel body at a grid point reads the query block, the key block and the value block and three scratch arrays
  it carries from point to point: the running row maximum M (2048 × 1), the running total weight L (2048 × 1) and the
  running weighted sum A (2048 × 64). It leaves new contents in each: newM, newL, newA below, the payloads of its
  last store into each scratch. At the first key tile of a query tile it first overwrites the three with negative
  infinity, zero and zero and then does the same update from those; at the last key tile it also stores the quotient
  A / L into the output block. This file opens the three control cases' stores and states each array's final contents
  as one of these functions, for any float instance.
-/
import proofs.«122753_j60387240182493_2_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The zero offsets of a load or store of a whole rank-2 buffer. -/
theorem hz : (![0, 0] : Fin 2 → Nat) = fun _ => 0 := funext fun a => by fin_cases a <;> rfl

/-- The new running maximum: the old one against the largest score of the key block, row by row. -/
def newM (x0 : Vec F S2048x64 .bf16) (x1 : Vec F S1024x64 .bf16) (M : Vec F S2048x1 .f32) : Vec F S2048x1 .f32 :=
  k0_pay2 (k0_pay8 x0 x1 M)

/-- The new total weight: the old one rescaled to the new maximum plus the key block's weights. -/
def newL (x0 : Vec F S2048x64 .bf16) (x1 : Vec F S1024x64 .bf16) (M L : Vec F S2048x1 .f32) : Vec F S2048x1 .f32 :=
  k0_pay11 x0 x1 M L

/-- The new weighted sum: the old one rescaled to the new maximum plus the key block's weights times its values. -/
def newA (x0 : Vec F S2048x64 .bf16) (x1 x2 : Vec F S1024x64 .bf16) (M : Vec F S2048x1 .f32) (A : Vec F S2048x64 .f32) :
    Vec F S2048x64 .f32 :=
  k0_pay1 (k0_pay12 x0 x1 x2 M A)

/-- The output block stored at the last key tile: the new weighted sum divided by the new total weight. -/
def outQ (x0 : Vec F S2048x64 .bf16) (x1 x2 : Vec F S1024x64 .bf16) (M L : Vec F S2048x1 .f32) (A : Vec F S2048x64 .f32) :
    Vec F S2048x64 .f32 :=
  k0_pay3 (newA x0 x1 x2 M A) (newL x0 x1 M L)

/-- The three contents the first key tile starts from: negative infinity, zero, zero. -/
abbrev M0 : Vec F S2048x1 .f32 := k0_pay4
abbrev L0 : Vec F S2048x1 .f32 := k0_pay5
abbrev A0 : Vec F S2048x64 .f32 := k0_pay6

/-! ## The first key tile -/

/-- The first key tile leaves in scratch 0 the update of negative infinity, zero and zero. -/
theorem sA0 (c : Dev nD) (i : grid0.Coords) (arg2 : Memref sig .tc .vmem S2048x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S2048x64 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : cond0_0 i) (hc1 : ¬cond0_1 i)
    (x0 : Vec F S2048x64 .bf16) (x1 : Vec F S1024x64 .bf16) (x2 : Vec F S1024x64 .bf16) :
    sout0_A_0 c i arg2 harg2 arg3 harg3 arg4 harg4 arg5 harg5 arg6 harg6 arg7 harg7 arg8 harg8 hc0 hc1 x0 x1 x2 = newM x0 x1 M0 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S2048x1) hz]
  simp only [View.readAt_eq_ld, harg2.read_unread, harg3.read_unread, harg4.read_unread, harg6.read_unread, harg7.read_unread, harg8.read_unread, View.ld_unit_zero (S := S2048x64) hz, View.ld_unit_zero (S := S1024x64) hz, View.ld_unit_zero (S := S2048x1) hz, View.readCov_unit_zero (S := S2048x1) _ hz, View.readCov_unit_zero (S := S2048x64) _ hz]
  rfl

/-- The first key tile leaves in scratch 1 the update of negative infinity, zero and zero. -/
theorem sA1 (c : Dev nD) (i : grid0.Coords) (arg2 : Memref sig .tc .vmem S2048x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S2048x64 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : cond0_0 i) (hc1 : ¬cond0_1 i)
    (x0 : Vec F S2048x64 .bf16) (x1 : Vec F S1024x64 .bf16) (x2 : Vec F S1024x64 .bf16) :
    sout0_A_1 c i arg2 harg2 arg3 harg3 arg4 harg4 arg5 harg5 arg6 harg6 arg7 harg7 arg8 harg8 hc0 hc1 x0 x1 x2 = newL x0 x1 M0 L0 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S2048x1) hz]
  simp only [View.readAt_eq_ld, harg2.read_unread, harg3.read_unread, harg4.read_unread, harg6.read_unread, harg7.read_unread, harg8.read_unread, View.ld_unit_zero (S := S2048x64) hz, View.ld_unit_zero (S := S1024x64) hz, View.ld_unit_zero (S := S2048x1) hz, View.readCov_unit_zero (S := S2048x1) _ hz, View.readCov_unit_zero (S := S2048x64) _ hz]
  rfl

/-- The first key tile leaves in scratch 2 the update of negative infinity, zero and zero. -/
theorem sA2 (c : Dev nD) (i : grid0.Coords) (arg2 : Memref sig .tc .vmem S2048x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S2048x64 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : cond0_0 i) (hc1 : ¬cond0_1 i)
    (x0 : Vec F S2048x64 .bf16) (x1 : Vec F S1024x64 .bf16) (x2 : Vec F S1024x64 .bf16) :
    sout0_A_2 c i arg2 harg2 arg3 harg3 arg4 harg4 arg5 harg5 arg6 harg6 arg7 harg7 arg8 harg8 hc0 hc1 x0 x1 x2 = newA x0 x1 x2 M0 A0 := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S2048x64) hz]
  simp only [View.readAt_eq_ld, harg2.read_unread, harg3.read_unread, harg4.read_unread, harg6.read_unread, harg7.read_unread, harg8.read_unread, View.ld_unit_zero (S := S2048x64) hz, View.ld_unit_zero (S := S1024x64) hz, View.ld_unit_zero (S := S2048x1) hz, View.readCov_unit_zero (S := S2048x1) _ hz, View.readCov_unit_zero (S := S2048x64) _ hz]
  rfl

/-! ## A middle key tile -/

/-- A middle key tile leaves in scratch 0 the update of what it found. -/
theorem sB0 (c : Dev nD) (i : grid0.Coords) (arg2 : Memref sig .tc .vmem S2048x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S2048x64 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond0_0 i) (hc1 : ¬cond0_1 i)
    (x0 : Vec F S2048x64 .bf16) (x1 : Vec F S1024x64 .bf16) (x2 : Vec F S1024x64 .bf16) (xs0 : Vec F S2048x1 .f32) (xs1 : Vec F S2048x1 .f32) (xs2 : Vec F S2048x64 .f32) :
    sout0_B_0 c i arg2 harg2 arg3 harg3 arg4 harg4 arg5 harg5 arg6 harg6 arg7 harg7 arg8 harg8 hc0 hc1 x0 x1 x2 xs0 xs1 xs2 = newM x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S2048x1) hz]
  simp only [View.readAt_eq_ld, harg2.read_unread, harg3.read_unread, harg4.read_unread, harg6.read_unread, harg7.read_unread, harg8.read_unread, View.ld_unit_zero (S := S2048x64) hz, View.ld_unit_zero (S := S1024x64) hz, View.ld_unit_zero (S := S2048x1) hz]
  rfl

/-- A middle key tile leaves in scratch 1 the update of what it found. -/
theorem sB1 (c : Dev nD) (i : grid0.Coords) (arg2 : Memref sig .tc .vmem S2048x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S2048x64 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond0_0 i) (hc1 : ¬cond0_1 i)
    (x0 : Vec F S2048x64 .bf16) (x1 : Vec F S1024x64 .bf16) (x2 : Vec F S1024x64 .bf16) (xs0 : Vec F S2048x1 .f32) (xs1 : Vec F S2048x1 .f32) (xs2 : Vec F S2048x64 .f32) :
    sout0_B_1 c i arg2 harg2 arg3 harg3 arg4 harg4 arg5 harg5 arg6 harg6 arg7 harg7 arg8 harg8 hc0 hc1 x0 x1 x2 xs0 xs1 xs2 = newL x0 x1 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S2048x1) hz]
  simp only [View.readAt_eq_ld, harg2.read_unread, harg3.read_unread, harg4.read_unread, harg6.read_unread, harg7.read_unread, harg8.read_unread, View.ld_unit_zero (S := S2048x64) hz, View.ld_unit_zero (S := S1024x64) hz, View.ld_unit_zero (S := S2048x1) hz]
  rfl

/-- A middle key tile leaves in scratch 2 the update of what it found. -/
theorem sB2 (c : Dev nD) (i : grid0.Coords) (arg2 : Memref sig .tc .vmem S2048x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S2048x64 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond0_0 i) (hc1 : ¬cond0_1 i)
    (x0 : Vec F S2048x64 .bf16) (x1 : Vec F S1024x64 .bf16) (x2 : Vec F S1024x64 .bf16) (xs0 : Vec F S2048x1 .f32) (xs1 : Vec F S2048x1 .f32) (xs2 : Vec F S2048x64 .f32) :
    sout0_B_2 c i arg2 harg2 arg3 harg3 arg4 harg4 arg5 harg5 arg6 harg6 arg7 harg7 arg8 harg8 hc0 hc1 x0 x1 x2 xs0 xs1 xs2 = newA x0 x1 x2 xs0 xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S2048x64) hz]
  simp only [View.readAt_eq_ld, harg2.read_unread, harg3.read_unread, harg4.read_unread, harg6.read_unread, harg7.read_unread, harg8.read_unread, View.ld_unit_zero (S := S2048x64) hz, View.ld_unit_zero (S := S1024x64) hz, View.ld_unit_zero (S := S2048x1) hz]
  rfl

/-! ## The last key tile -/

/-- The last key tile leaves in scratch 0 the update of what it found. -/
theorem sC0 (c : Dev nD) (i : grid0.Coords) (arg2 : Memref sig .tc .vmem S2048x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S2048x64 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond0_0 i) (hc1 : cond0_1 i)
    (x0 : Vec F S2048x64 .bf16) (x1 : Vec F S1024x64 .bf16) (x2 : Vec F S1024x64 .bf16) (xs0 : Vec F S2048x1 .f32) (xs1 : Vec F S2048x1 .f32) (xs2 : Vec F S2048x64 .f32) :
    sout0_C_0 c i arg2 harg2 arg3 harg3 arg4 harg4 arg5 harg5 arg6 harg6 arg7 harg7 arg8 harg8 hc0 hc1 x0 x1 x2 xs0 xs1 xs2 = newM x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S2048x1) hz]
  simp only [View.readAt_eq_ld, harg2.read_unread, harg3.read_unread, harg4.read_unread, harg6.read_unread, harg7.read_unread, harg8.read_unread, View.ld_unit_zero (S := S2048x64) hz, View.ld_unit_zero (S := S1024x64) hz, View.ld_unit_zero (S := S2048x1) hz]
  rfl

/-- The last key tile leaves in scratch 1 the update of what it found. -/
theorem sC1 (c : Dev nD) (i : grid0.Coords) (arg2 : Memref sig .tc .vmem S2048x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S2048x64 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond0_0 i) (hc1 : cond0_1 i)
    (x0 : Vec F S2048x64 .bf16) (x1 : Vec F S1024x64 .bf16) (x2 : Vec F S1024x64 .bf16) (xs0 : Vec F S2048x1 .f32) (xs1 : Vec F S2048x1 .f32) (xs2 : Vec F S2048x64 .f32) :
    sout0_C_1 c i arg2 harg2 arg3 harg3 arg4 harg4 arg5 harg5 arg6 harg6 arg7 harg7 arg8 harg8 hc0 hc1 x0 x1 x2 xs0 xs1 xs2 = newL x0 x1 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S2048x1) hz]
  simp only [View.readAt_eq_ld, harg2.read_unread, harg3.read_unread, harg4.read_unread, harg6.read_unread, harg7.read_unread, harg8.read_unread, View.ld_unit_zero (S := S2048x64) hz, View.ld_unit_zero (S := S1024x64) hz, View.ld_unit_zero (S := S2048x1) hz]
  rfl

/-- The last key tile leaves in scratch 2 the update of what it found. -/
theorem sC2 (c : Dev nD) (i : grid0.Coords) (arg2 : Memref sig .tc .vmem S2048x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S2048x64 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond0_0 i) (hc1 : cond0_1 i)
    (x0 : Vec F S2048x64 .bf16) (x1 : Vec F S1024x64 .bf16) (x2 : Vec F S1024x64 .bf16) (xs0 : Vec F S2048x1 .f32) (xs1 : Vec F S2048x1 .f32) (xs2 : Vec F S2048x64 .f32) :
    sout0_C_2 c i arg2 harg2 arg3 harg3 arg4 harg4 arg5 harg5 arg6 harg6 arg7 harg7 arg8 harg8 hc0 hc1 x0 x1 x2 xs0 xs1 xs2 = newA x0 x1 x2 xs0 xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S2048x64) hz]
  simp only [View.readAt_eq_ld, harg2.read_unread, harg3.read_unread, harg4.read_unread, harg6.read_unread, harg7.read_unread, harg8.read_unread, View.ld_unit_zero (S := S2048x64) hz, View.ld_unit_zero (S := S1024x64) hz, View.ld_unit_zero (S := S2048x1) hz]
  rfl

/-- The last key tile stores into the output block the new weighted sum over the new total weight. -/
theorem oC3 (c : Dev nD) (i : grid0.Coords) (arg2 : Memref sig .tc .vmem S2048x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S2048x64 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x64 .f32) (harg8 : arg8.IsWhole) (hc0 : ¬cond0_0 i) (hc1 : cond0_1 i)
    (x0 : Vec F S2048x64 .bf16) (x1 : Vec F S1024x64 .bf16) (x2 : Vec F S1024x64 .bf16) (xs0 : Vec F S2048x1 .f32) (xs1 : Vec F S2048x1 .f32) (xs2 : Vec F S2048x64 .f32) :
    out0_C_3 c i arg2 harg2 arg3 harg3 arg4 harg4 arg5 harg5 arg6 harg6 arg7 harg7 arg8 harg8 hc0 hc1 x0 x1 x2 xs0 xs1 xs2 = outQ x0 x1 x2 xs0 xs1 xs2 := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S2048x64) hz]
  simp only [View.readAt_eq_ld, harg2.read_unread, harg3.read_unread, harg4.read_unread, harg6.read_unread, harg7.read_unread, harg8.read_unread, View.ld_unit_zero (S := S2048x64) hz, View.ld_unit_zero (S := S1024x64) hz, View.ld_unit_zero (S := S2048x1) hz, View.readCov_unit_zero (S := S2048x1) _ hz, View.readCov_unit_zero (S := S2048x64) _ hz]
  rfl

end Cert.KernelIdeal.Pieces

end
-- ==== Proof.LibGram.lean ====
/-
  A matrix times the transpose of a matrix, read at an index, at the ideal values: for the dimension numbers
  "contract the left operand's axis 1 with the right operand's axis 1, no batch axis" — the record a product
  A · Bᵀ of an m × k and an n × k matrix prints — the matrix unit's product into a zero accumulator and the
  host's `dot_general` are both, at (a, b), the sum over c of A (a, c) * B (b, c). With B = A it is the Gram
  matrix of the rows of A.
-/
import Idealize.ShloMosaic.Lib.ValueIdx
import Idealize.ShloMosaic.PureOps.Ideal.Laws

noncomputable section

namespace Cert.LibGram

open Idealize.ShloMosaic Idealize.ShloMosaic.ValueIdx
open scoped BigOperators

variable {m k n : Nat} {φ₁ φ₂ : FTy}

/-- The record: both contracting axes are axis 1, the kept axes are each operand's axis 0, no batch axis. -/
abbrev dims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

theorem lhsIdx_eq (w : DotDims.WF ⟨2, ![m, k]⟩ ⟨2, ![n, k]⟩ ⟨2, ![m, n]⟩ [1] [1] [0] [0] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![n, k]⟩ ⟨2, ![m, n]⟩ [1] [1] [0] [0] [] [])
    (a : Fin m) (b : Fin n) (c : Fin k) :
    (dims w).rhsIdx (ix2 a b) ((contrEquiv1 (dims w) k rfl rfl).symm c) = ix2 b c := by
  have c2 := contrEquiv1_symm_val (dims w) k rfl rfl c
  funext ax; apply Fin.ext
  match ax with
  | ⟨0, _⟩ => simp [DotDims.rhsIdx]; rfl
  | ⟨1, _⟩ => simp [DotDims.rhsIdx]; exact c2

/-- The matrix unit's product A · Bᵀ into a zero accumulator at (a, b): the sum over the shared column index. -/
theorem matmul_zero_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (dims w) prec A B (constant ⟨2, ![m, n]⟩ .f32 0x00000000#32) (ix2 a b) = ∑ c : Fin k, A (ix2 a c) * B (ix2 b c) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

/-- The host's product A · Bᵀ at (a, b): the same sum. -/
theorem dotGeneral_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    Host.dotGeneral (dims w) prec A B (ix2 a b) = ∑ c : Fin k, A (ix2 a c) * B (ix2 b c) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

end Cert.LibGram
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibRowReduce.lean ====
/-
  Reductions along the rows of a matrix, at the ideal values: a reduction over axis 1 of an a × b array, read
  at row p. A maximum that starts from negative infinity is the supremum of the row's entries (the order of
  folding does not matter and the start is the least element); a sum that starts from zero is the sum of the
  row's entries. For any extents.
-/
import Idealize.ShloMosaic.PureOps.Ideal.Laws
import Idealize.ShloMosaic.Lib.ValueIdx

noncomputable section

namespace Cert.LibRowReduce

open Idealize.ShloMosaic Idealize.ShloMosaic.ValueIdx
open scoped BigOperators

/-- The f32 word of negative infinity denotes the least extended real. -/
theorem ofBits_neg_inf : Ideal.ofBits .f32 0xFF800000#32 = (⊥ : EReal) := by simp [Ideal.ofBits, Ideal.ieee]

/-- The coordinate inserted on axis 1 of a row index. -/
theorem lift_row {a b : Nat} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- The maximum of each row from negative infinity, at row p: the supremum over the columns. -/
theorem rowMax_apply {a b : Nat} (y : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ y 0xFF800000#32 h hφ hacc (ix1 p)
      = (Finset.univ : Finset (Fin b)).sup fun k => y (ix2 p k) := by
  refine (Ideal.multiReduction_maximumf_single y _ h hφ hacc (ix1 p)).trans ?_
  rw [show FloatOps.ofBits (F := Ideal) .f32 0xFF800000#32 = (⊥ : EReal) from ofBits_neg_inf]
  exact Finset.sup_congr rfl fun k _ => congrArg y (lift_row h p k)

/-- The sum of each row from zero, at row p: the sum over the columns. -/
theorem rowSum_apply {a b : Nat} (y : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ y 0x00000000#32 h hφ hacc (ix1 p)
      = ∑ k : Fin b, y (ix2 p k) := by
  refine (Ideal.multiReduction_add_single y _ h hφ hacc (ix1 p)).trans ?_
  exact Finset.sum_congr rfl fun k _ => congrArg y (lift_row h p k)

end Cert.LibRowReduce
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.PayIdx.lean ====
/-
  The update of one grid point, entry by entry, on the extended reals.

  With Q the 2048 × 64 query block, K and V the 1024 × 64 key and value blocks and M, L, A what the point found in the
  three scratch arrays, write  s p b = ∑ c, Q p c * K b c  for the score of row p against key b of the block. Then row by row
    the new maximum   M' p   = max (M p) (sup_b s p b),
    the new total     L' p   = exp (M p - M' p) * L p + ∑ b, exp (s p b - M' p),
    the new sum       A' p e = exp (M p - M' p) * A p e + ∑ b, exp (s p b - M' p) * V b e,
  and the block stored at the last key tile is  A' p e / L' p.  A change of float format is the identity here, a
  matrix product into a zero accumulator is the plain sum of products, and a row reduction is a supremum or a sum.
-/
import proofs.«122753_j60387240182493_2_alg».proof.Proof.Pieces
import proofs.«122753_j60387240182493_2_alg».proof.Proof.LibGram
import proofs.«122753_j60387240182493_2_alg».proof.Proof.LibDot
import proofs.«122753_j60387240182493_2_alg».proof.Proof.LibRowReduce
import proofs.«122753_j60387240182493_2_alg».proof.Proof.LibKeepdims
import Idealize.ShloMosaic.Lib.ValueIdx
import Idealize.ShloMosaic.Lib.Pipeline.Value
import Idealize.ShloMosaic.PureOps.Ideal.Laws

noncomputable section

namespace Cert.KernelIdeal.PayIdx

open Cert.KernelIdeal Cert.KernelIdeal.Gen Cert.KernelIdeal.Pieces Idealize.ShloMosaic Idealize.ShloMosaic.TcCoe
open Idealize.ShloMosaic.ValueIdx
open scoped BigOperators

variable (x0 : Vec Ideal S2048x64 .bf16) (x1 x2 : Vec Ideal S1024x64 .bf16)
variable (M L : Vec Ideal S2048x1 .f32) (A : Vec Ideal S2048x64 .f32)

/-- The score of row p of the query block against row b of the key block. -/
def tileScore (p : Fin 2048) (b : Fin 1024) : EReal := ∑ c : Fin 64, x0 (ix2 p c) * x1 (ix2 b c)

/-- The score matrix of the point: the query block times the transposed key block. -/
theorem pay7_at (p : Fin 2048) (b : Fin 1024) : k0_pay7 (F := Ideal) x0 x1 (ix2 p b) = tileScore x0 x1 p b := by
  unfold k0_pay7 tileScore
  simp only [shapeCast_self]
  exact Cert.LibGram.matmul_zero_apply dot_S2048x64_S1024x64_S2048x1024_1_1_0_0_n_n.wf none x0 x1 p b

/-- The new maximum of row p. -/
theorem newM_at (p : Fin 2048) :
    newM (F := Ideal) x0 x1 M (ix2 p (0 : Fin 1))
      = max (M (ix2 p (0 : Fin 1))) ((Finset.univ : Finset (Fin 1024)).sup fun b => tileScore x0 x1 p b) := by
  unfold newM k0_pay2 k0_pay8
  simp only [shapeCast_self]
  rw [maximumf_apply, shapeCast_a_a1_apply]
  refine congrArg (max (M (ix2 p (0 : Fin 1)))) ?_
  refine (Cert.LibRowReduce.rowMax_apply (k0_pay7 (F := Ideal) x0 x1) reduces_S2048x1024_S2048 _ _ p).trans ?_
  simp only [pay7_at]

/-- The rescaling factor of row p: the exponential of the old maximum less the new. -/
theorem pay9_at (p : Fin 2048) :
    k0_pay9 (F := Ideal) x0 x1 M (ix2 p (0 : Fin 1))
      = Ideal.exp (M (ix2 p (0 : Fin 1)) - newM (F := Ideal) x0 x1 M (ix2 p (0 : Fin 1))) := by
  unfold k0_pay9 newM k0_pay2
  simp only [shapeCast_self]
  rfl

/-- The weight of key b for row p: the exponential of its score less the new maximum. -/
theorem pay10_at (p : Fin 2048) (b : Fin 1024) :
    k0_pay10 (F := Ideal) x0 x1 M (ix2 p b)
      = Ideal.exp (tileScore x0 x1 p b - newM (F := Ideal) x0 x1 M (ix2 p (0 : Fin 1))) := by
  unfold k0_pay10 newM k0_pay2
  simp only [shapeCast_self]
  show Ideal.exp (k0_pay7 (F := Ideal) x0 x1 (ix2 p b) - broadcastTo S2048x1024 (k0_pay8 (F := Ideal) x0 x1 M) broadcasts_S2048x1_S2048x1024 (ix2 p b)) = _
  rw [broadcastTo_a1_ab_apply, pay7_at]

/-- The new total weight of row p. -/
theorem newL_at (p : Fin 2048) :
    newL (F := Ideal) x0 x1 M L (ix2 p (0 : Fin 1))
      = Ideal.exp (M (ix2 p (0 : Fin 1)) - newM (F := Ideal) x0 x1 M (ix2 p (0 : Fin 1))) * L (ix2 p (0 : Fin 1))
        + ∑ b : Fin 1024, Ideal.exp (tileScore x0 x1 p b - newM (F := Ideal) x0 x1 M (ix2 p (0 : Fin 1))) := by
  unfold newL k0_pay11
  simp only [shapeCast_self]
  rw [addf_apply, mulf_apply, shapeCast_a_a1_apply, pay9_at]
  refine congrArg (Ideal.exp (M (ix2 p (0 : Fin 1)) - newM (F := Ideal) x0 x1 M (ix2 p (0 : Fin 1))) * L (ix2 p (0 : Fin 1)) + ·) ?_
  refine (Cert.LibRowReduce.rowSum_apply (k0_pay10 (F := Ideal) x0 x1 M) reduces_S2048x1024_S2048 _ _ p).trans ?_
  simp only [pay10_at]

/-- The new weighted sum of row p at column e. -/
theorem newA_at (p : Fin 2048) (e : Fin 64) :
    newA (F := Ideal) x0 x1 x2 M A (ix2 p e)
      = Ideal.exp (M (ix2 p (0 : Fin 1)) - newM (F := Ideal) x0 x1 M (ix2 p (0 : Fin 1))) * A (ix2 p e)
        + ∑ b : Fin 1024, Ideal.exp (tileScore x0 x1 p b - newM (F := Ideal) x0 x1 M (ix2 p (0 : Fin 1))) * x2 (ix2 b e) := by
  unfold newA k0_pay1 k0_pay12
  simp only [shapeCast_self]
  rw [addf_apply, mulf_apply, broadcastTo_a1_ab_apply, pay9_at]
  refine congrArg (Ideal.exp (M (ix2 p (0 : Fin 1)) - newM (F := Ideal) x0 x1 M (ix2 p (0 : Fin 1))) * A (ix2 p e) + ·) ?_
  refine (Cert.LibDot.matmul_zero_apply dot_S2048x1024_S1024x64_S2048x64_1_0_0_1_n_n.wf none
    (truncf .bf16 (k0_pay10 (F := Ideal) x0 x1 M) bitsLt_bf16_f32) x2 p e).trans ?_
  simp only [truncf_apply, pay10_at]

/-- The block stored at the last key tile: the new sum over the new total. -/
theorem outQ_at (p : Fin 2048) (e : Fin 64) :
    outQ (F := Ideal) x0 x1 x2 M L A (ix2 p e)
      = Ideal.div (newA (F := Ideal) x0 x1 x2 M A (ix2 p e)) (newL (F := Ideal) x0 x1 M L (ix2 p (0 : Fin 1))) := by
  unfold outQ k0_pay3
  show Ideal.div (newA (F := Ideal) x0 x1 x2 M A (ix2 p e)) (broadcastTo S2048x64 (newL (F := Ideal) x0 x1 M L) broadcasts_S2048x1_S2048x64 (ix2 p e)) = _
  rw [broadcastTo_a1_ab_apply]

/-- What the first key tile starts from: negative infinity, zero, zero. -/
theorem M0_at (i : S2048x1.Idx) : (M0 (F := Ideal)) i = ⊥ := by
  unfold M0 k0_pay4
  simp only [shapeCast_self]
  exact Cert.LibRowReduce.ofBits_neg_inf
theorem L0_at (i : S2048x1.Idx) : (L0 (F := Ideal)) i = 0 := by
  unfold L0 k0_pay5
  simp only [shapeCast_self]
  exact Ideal.ofBits_zero_f32
theorem A0_at (i : S2048x64.Idx) : (A0 (F := Ideal)) i = 0 := by
  unfold A0 k0_pay6
  simp only [shapeCast_self]
  exact Ideal.ofBits_zero_f32

end Cert.KernelIdeal.PayIdx

end
-- ==== Proof.LibStream.lean ====
/-
  Streaming softmax-attention for one query row equals the one-shot computation.

  The keys arrive in T tiles of B keys. The streamed computation carries a running maximum M,
  a running total weight L = Σ exp(score − M) and a running weighted sum A = Σ exp(score − M) · value
  over the keys seen so far; when a tile raises the maximum from M to M', the carried sums are rescaled
  by exp(M − M'), because exp(M − M') · exp(s − M) = exp(s − M'). When every score and value is a real
  number, M is real from the first tile on, all the arithmetic is arithmetic of real numbers read in the
  extended reals, and the quotient A / L does not depend on the reference point subtracted in the
  exponent: (Σ exp(s − m) · v) / (Σ exp(s − m)) is the same for every real m, since changing m multiplies
  numerator and denominator by one positive factor. So the streamed quotient after all tiles is the
  one-shot quotient, whose reference point is the maximum of all the scores.
-/
import Idealize.ShloMosaic.PureOps.Ideal

noncomputable section

namespace Cert.Stream

open Idealize.ShloMosaic
open scoped BigOperators

variable {B : ℕ}

/-- The running maximum after t tiles: −∞ before any tile, then the larger of the old maximum and the
    new tile's maximum. -/
def runM (s : ℕ → Fin B → EReal) : ℕ → EReal
  | 0 => ⊥
  | t + 1 => max (runM s t) ((Finset.univ : Finset (Fin B)).sup (s t))

/-- The running total weight after t tiles: the old total rescaled to the new maximum, plus the new
    tile's weights. -/
def runL (s : ℕ → Fin B → EReal) : ℕ → EReal
  | 0 => 0
  | t + 1 => Ideal.exp (runM s t - runM s (t + 1)) * runL s t + ∑ b : Fin B, Ideal.exp (s t b - runM s (t + 1))

/-- The running weighted sum after t tiles: the old sum rescaled to the new maximum, plus the new
    tile's weighted values. -/
def runA (s v : ℕ → Fin B → EReal) : ℕ → EReal
  | 0 => 0
  | t + 1 => Ideal.exp (runM s t - runM s (t + 1)) * runA s v t + ∑ b : Fin B, Ideal.exp (s t b - runM s (t + 1)) * v t b

/-- tile j of a flat family of n entries: entry b of tile j is flat entry j*B + b (read modulo n so that it is total) -/
def tile {n : ℕ} (hn : 0 < n) (w : Fin n → EReal) (j : ℕ) (b : Fin B) : EReal := w ⟨(j * B + b.val) % n, Nat.mod_lt _ hn⟩

/-! ### The recursions, one equation each -/

/-- The running maximum before any tile is −∞. -/
theorem runM_zero (s : ℕ → Fin B → EReal) : runM s 0 = ⊥ := rfl
/-- One tile's update of the running maximum. -/
theorem runM_succ (s : ℕ → Fin B → EReal) (t : ℕ) :
    runM s (t + 1) = max (runM s t) ((Finset.univ : Finset (Fin B)).sup (s t)) := rfl
/-- The running total weight before any tile is 0. -/
theorem runL_zero (s : ℕ → Fin B → EReal) : runL s 0 = 0 := rfl
/-- One tile's update of the running total weight. -/
theorem runL_succ (s : ℕ → Fin B → EReal) (t : ℕ) :
    runL s (t + 1)
      = Ideal.exp (runM s t - runM s (t + 1)) * runL s t + ∑ b : Fin B, Ideal.exp (s t b - runM s (t + 1)) := rfl
/-- The running weighted sum before any tile is 0. -/
theorem runA_zero (s v : ℕ → Fin B → EReal) : runA s v 0 = 0 := rfl
/-- One tile's update of the running weighted sum. -/
theorem runA_succ (s v : ℕ → Fin B → EReal) (t : ℕ) :
    runA s v (t + 1)
      = Ideal.exp (runM s t - runM s (t + 1)) * runA s v t
        + ∑ b : Fin B, Ideal.exp (s t b - runM s (t + 1)) * v t b := rfl

/-! ### Real numbers read in the extended reals -/

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals in the extended reals commutes with the maximum of two numbers. -/
theorem coe_max (a b : ℝ) : ((max a b : ℝ) : EReal) = max (a : EReal) (b : EReal) :=
  EReal.coe_strictMono.monotone.map_max

/-- The exponential of a difference of two real numbers is the real exponential of the difference. -/
theorem exp_coe_sub (a b : ℝ) : Ideal.exp ((a : EReal) - (b : EReal)) = ((Real.exp (a - b) : ℝ) : EReal) := by
  rw [← EReal.coe_sub, Ideal.exp_coe]

/-- The maximum of a nonempty tile of real numbers is one of them, so a real number. -/
theorem sup_row_real (hB : 0 < B) (f : Fin B → ℝ) :
    ∃ r : ℝ, (Finset.univ : Finset (Fin B)).sup (fun b => (f b : EReal)) = (r : EReal) := by
  haveI : Nonempty (Fin B) := ⟨⟨0, hB⟩⟩
  obtain ⟨b, -, hb⟩ := Finset.exists_mem_eq_sup Finset.univ Finset.univ_nonempty (fun b => (f b : EReal))
  exact ⟨f b, hb⟩

/-- One tile's update of the total weight, when the old and new maxima, the old total and the tile's
    scores are real: the update computed in the reals. -/
theorem step_L (m m' l : ℝ) (row : Fin B → ℝ) :
    Ideal.exp ((m : EReal) - (m' : EReal)) * (l : EReal) + ∑ b : Fin B, Ideal.exp ((row b : EReal) - (m' : EReal))
      = ((Real.exp (m - m') * l + ∑ b : Fin B, Real.exp (row b - m') : ℝ) : EReal) := by
  simp_rw [exp_coe_sub]
  rw [EReal.coe_add, EReal.coe_mul, coe_sum]

/-- One tile's update of the weighted sum, when everything in it is real: the update computed in the
    reals. -/
theorem step_A (m m' a : ℝ) (row vrow : Fin B → ℝ) :
    Ideal.exp ((m : EReal) - (m' : EReal)) * (a : EReal)
        + ∑ b : Fin B, Ideal.exp ((row b : EReal) - (m' : EReal)) * (vrow b : EReal)
      = ((Real.exp (m - m') * a + ∑ b : Fin B, Real.exp (row b - m') * vrow b : ℝ) : EReal) := by
  simp_rw [exp_coe_sub, ← EReal.coe_mul]
  rw [EReal.coe_add, coe_sum]

/-! ### The sums over the keys seen so far, in the reals -/

/-- The total weight of the first t tiles at reference point m: Σ exp(score − m). -/
def seenL (σ : ℕ → Fin B → ℝ) (t : ℕ) (m : ℝ) : ℝ :=
  ∑ j ∈ Finset.range t, ∑ b : Fin B, Real.exp (σ j b - m)

/-- The weighted sum of the first t tiles at reference point m: Σ exp(score − m) · value. -/
def seenA (σ ν : ℕ → Fin B → ℝ) (t : ℕ) (m : ℝ) : ℝ :=
  ∑ j ∈ Finset.range t, ∑ b : Fin B, Real.exp (σ j b - m) * ν j b

/-- Moving the reference point from m to m' multiplies each weight by exp(m − m'):
    exp(m − m') · exp(x − m) = exp(x − m'). -/
theorem exp_shift (m m' x : ℝ) : Real.exp (m - m') * Real.exp (x - m) = Real.exp (x - m') := by
  rw [← Real.exp_add]; congr 1; ring

/-- Moving the reference point of the total weight from m to m' multiplies it by exp(m − m'). -/
theorem seenL_shift (σ : ℕ → Fin B → ℝ) (t : ℕ) (m m' : ℝ) :
    Real.exp (m - m') * seenL σ t m = seenL σ t m' := by
  unfold seenL
  rw [Finset.mul_sum]
  refine Finset.sum_congr rfl fun j _ => ?_
  rw [Finset.mul_sum]
  exact Finset.sum_congr rfl fun b _ => exp_shift m m' _

/-- Moving the reference point of the weighted sum from m to m' multiplies it by exp(m − m'). -/
theorem seenA_shift (σ ν : ℕ → Fin B → ℝ) (t : ℕ) (m m' : ℝ) :
    Real.exp (m - m') * seenA σ ν t m = seenA σ ν t m' := by
  unfold seenA
  rw [Finset.mul_sum]
  refine Finset.sum_congr rfl fun j _ => ?_
  rw [Finset.mul_sum]
  refine Finset.sum_congr rfl fun b _ => ?_
  rw [← mul_assoc, exp_shift]

/-- The closed form after t + 1 tiles of real scores and values: the running maximum is a real number
    m, and the running total weight and weighted sum are the sums over the keys seen so far at
    reference point m. -/
theorem run_closed (hB : 0 < B) (σ ν : ℕ → Fin B → ℝ) (t : ℕ) :
    ∃ m : ℝ, runM (fun j b => (σ j b : EReal)) (t + 1) = (m : EReal)
      ∧ runL (fun j b => (σ j b : EReal)) (t + 1) = ((seenL σ (t + 1) m : ℝ) : EReal)
      ∧ runA (fun j b => (σ j b : EReal)) (fun j b => (ν j b : EReal)) (t + 1)
          = ((seenA σ ν (t + 1) m : ℝ) : EReal) := by
  induction t with
  | zero =>
    -- the first tile: the old maximum is −∞ and the old sums are 0, so the tile's own sums remain
    obtain ⟨r, hr⟩ := sup_row_real hB (σ 0)
    have hM : runM (fun j b => (σ j b : EReal)) (0 + 1) = (r : EReal) := by
      rw [runM_succ, runM_zero, max_bot_left]; exact hr
    refine ⟨r, hM, ?_, ?_⟩
    · rw [runL_succ, runL_zero, hM, mul_zero, zero_add]
      simp_rw [exp_coe_sub]
      rw [← coe_sum]; simp [seenL]
    · rw [runA_succ, runA_zero, hM, mul_zero, zero_add]
      simp_rw [exp_coe_sub, ← EReal.coe_mul]
      rw [← coe_sum]; simp [seenA]
  | succ t ih =>
    -- a later tile: old maximum m and new tile maximum r are real, so is the new maximum max m r
    obtain ⟨m, hM, hL, hA⟩ := ih
    obtain ⟨r, hr⟩ := sup_row_real hB (σ (t + 1))
    have hM' : runM (fun j b => (σ j b : EReal)) (t + 1 + 1) = ((max m r : ℝ) : EReal) := by
      rw [runM_succ, hM, coe_max]; congr 1
    refine ⟨max m r, hM', ?_, ?_⟩
    · rw [runL_succ, hM', hM, hL, step_L, seenL_shift]
      simp [seenL, Finset.sum_range_succ]
    · rw [runA_succ, hM', hM, hA, step_A, seenA_shift]
      simp [seenA, Finset.sum_range_succ]

/-! ### The quotient does not depend on the reference point -/

/-- The quotient (Σ exp(x − m) · y) / (Σ exp(x − m)) over a nonempty finite family of real numbers is
    the same at every reference point m: moving it multiplies numerator and denominator by one positive
    number. -/
theorem div_shift {ι : Type*} [Fintype ι] [Nonempty ι] (x y : ι → ℝ) (m c : ℝ) :
    Ideal.div ((∑ k, Real.exp (x k - m) * y k : ℝ) : EReal) ((∑ k, Real.exp (x k - m) : ℝ) : EReal)
      = Ideal.div ((∑ k, Real.exp (x k - c) * y k : ℝ) : EReal) ((∑ k, Real.exp (x k - c) : ℝ) : EReal) := by
  have hpos : ∀ m : ℝ, 0 < ∑ k, Real.exp (x k - m) := fun m =>
    Finset.sum_pos (fun k _ => Real.exp_pos _) Finset.univ_nonempty
  have hA : ∑ k, Real.exp (x k - m) * y k = Real.exp (c - m) * ∑ k, Real.exp (x k - c) * y k := by
    rw [Finset.mul_sum]; exact Finset.sum_congr rfl fun k _ => by rw [← mul_assoc, exp_shift]
  have hL : ∑ k, Real.exp (x k - m) = Real.exp (c - m) * ∑ k, Real.exp (x k - c) := by
    rw [Finset.mul_sum]; exact Finset.sum_congr rfl fun k _ => (exp_shift c m _).symm
  rw [Ideal.div_coe (hpos m).ne', Ideal.div_coe (hpos c).ne', ← EReal.coe_mul, ← EReal.coe_mul, hA, hL]
  congr 1
  have h1 := (hpos c).ne'
  have h2 := (Real.exp_pos (c - m)).ne'
  field_simp

/-! ### Tiles of a flat family -/

/-- Summing tile by tile over T tiles of B entries is summing over all T·B entries: entry b of tile j
    is flat entry j·B + b, and (j, b) ↦ j·B + b is a bijection onto the numbers below T·B. -/
theorem sum_tiles (T : ℕ) (hn : 0 < T * B) (h : Fin (T * B) → ℝ) :
    ∑ j ∈ Finset.range T, ∑ b : Fin B, h ⟨(j * B + b.val) % (T * B), Nat.mod_lt _ hn⟩ = ∑ k : Fin (T * B), h k := by
  rw [Finset.sum_range (fun j => ∑ b : Fin B, h ⟨(j * B + b.val) % (T * B), Nat.mod_lt _ hn⟩)]
  rw [← Fintype.sum_prod_type' (fun (j : Fin T) (b : Fin B) => h ⟨(j.val * B + b.val) % (T * B), Nat.mod_lt _ hn⟩)]
  refine Fintype.sum_equiv finProdFinEquiv _ _ fun p => ?_
  congr 1
  apply Fin.ext
  have hlt : p.1.val * B + p.2.val < T * B := by
    have h1 : p.1.val + 1 ≤ T := p.1.isLt
    have h2 : p.2.val < B := p.2.isLt
    calc p.1.val * B + p.2.val < p.1.val * B + B := by omega
      _ = (p.1.val + 1) * B := by ring
      _ ≤ T * B := Nat.mul_le_mul_right B h1
  show (p.1.val * B + p.2.val) % (T * B) = p.2.val + B * p.1.val
  rw [Nat.mod_eq_of_lt hlt]; ring

/-! ### The streamed quotient is the one-shot quotient -/

/-- The statement for real scores σ and values ν over T + 1 tiles: after all tiles the running maximum
    is some real m and the running sums are the flat sums at reference point m; the maximum of all the
    scores is one of them, a real c; and the quotient is the same at m and at c. -/
theorem run_div_real (T : ℕ) (hB : 0 < B) (hn : 0 < (T + 1) * B) (σ ν : Fin ((T + 1) * B) → ℝ) :
    Ideal.div (runA (tile (B := B) hn fun k => (σ k : EReal)) (tile hn fun k => (ν k : EReal)) (T + 1))
        (runL (tile (B := B) hn fun k => (σ k : EReal)) (T + 1))
      = Ideal.div
          (∑ k, Ideal.exp ((σ k : EReal) - (Finset.univ : Finset (Fin ((T + 1) * B))).sup fun k => (σ k : EReal))
            * (ν k : EReal))
          (∑ k, Ideal.exp ((σ k : EReal) - (Finset.univ : Finset (Fin ((T + 1) * B))).sup fun k => (σ k : EReal))) := by
  haveI : Nonempty (Fin ((T + 1) * B)) := ⟨⟨0, hn⟩⟩
  -- the streamed side, in closed form at its final maximum m
  obtain ⟨m, -, hL, hA⟩ := run_closed hB
    (fun j b => σ ⟨(j * B + b.val) % ((T + 1) * B), Nat.mod_lt _ hn⟩)
    (fun j b => ν ⟨(j * B + b.val) % ((T + 1) * B), Nat.mod_lt _ hn⟩) T
  have hL' : runL (tile (B := B) hn fun k => (σ k : EReal)) (T + 1) = ((∑ k, Real.exp (σ k - m) : ℝ) : EReal) := by
    refine hL.trans ?_
    congr 1
    exact sum_tiles (T + 1) hn fun k => Real.exp (σ k - m)
  have hA' : runA (tile (B := B) hn fun k => (σ k : EReal)) (tile hn fun k => (ν k : EReal)) (T + 1)
      = ((∑ k, Real.exp (σ k - m) * ν k : ℝ) : EReal) := by
    refine hA.trans ?_
    congr 1
    exact sum_tiles (T + 1) hn fun k => Real.exp (σ k - m) * ν k
  -- the one-shot side: the maximum of all the scores is the real number c = σ k₀
  obtain ⟨k₀, -, hk₀⟩ := Finset.exists_mem_eq_sup (Finset.univ : Finset (Fin ((T + 1) * B)))
    Finset.univ_nonempty (fun k => (σ k : EReal))
  rw [hL', hA', hk₀]
  simp_rw [exp_coe_sub, ← EReal.coe_mul]
  rw [← coe_sum, ← coe_sum]
  exact div_shift σ ν m (σ k₀)

/-- Streaming over T tiles of B keys, carrying the running maximum, total weight and weighted sum and
    rescaling at each tile, gives the same quotient as the one-shot softmax-weighted average over all
    n = T·B keys, when every score and every value is a real number. -/
theorem run_div (T : ℕ) (hT : 0 < T) (hB : 0 < B) {n : ℕ} (hnTB : n = T * B) (hn : 0 < n) (w u : Fin n → EReal)
    (hw : ∀ k, ∃ r : ℝ, w k = (r : EReal)) (hu : ∀ k, ∃ r : ℝ, u k = (r : EReal)) :
    Ideal.div (runA (tile (B := B) hn w) (tile hn u) T) (runL (tile (B := B) hn w) T)
      = Ideal.div (∑ k : Fin n, Ideal.exp (w k - (Finset.univ : Finset (Fin n)).sup w) * u k)
                  (∑ k : Fin n, Ideal.exp (w k - (Finset.univ : Finset (Fin n)).sup w)) := by
  subst hnTB
  obtain ⟨T', rfl⟩ : ∃ T', T = T' + 1 := ⟨T - 1, by omega⟩
  choose σ hσ using hw
  choose ν hν using hu
  obtain rfl : w = fun k => (σ k : EReal) := funext hσ
  obtain rfl : u = fun k => (ν k : EReal) := funext hν
  exact run_div_real T' hB hn σ ν

end Cert.Stream

end
-- ==== Proof.Step.lean ====
/-
  One grid point advances the streamed state by one key tile.

  If the scores of the point's query block against its key block are tile j of a family s, its value block is tile j
  of a family v, and the three scratch arrays hold at row p the streamed maximum, total and weighted sum after j tiles,
  then after the point they hold those after j + 1 tiles: the kernel's update is the streamed one, entry by entry.
-/
import proofs.«122753_j60387240182493_2_alg».proof.Proof.PayIdx
import proofs.«122753_j60387240182493_2_alg».proof.Proof.LibStream

noncomputable section

namespace Cert.KernelIdeal.Step

open Cert.KernelIdeal Cert.KernelIdeal.Gen Cert.KernelIdeal.Pieces Cert.KernelIdeal.PayIdx Cert.Stream
open Idealize.ShloMosaic Idealize.ShloMosaic.TcCoe Idealize.ShloMosaic.ValueIdx
open scoped BigOperators

variable (x0 : Vec Ideal S2048x64 .bf16) (x1 x2 : Vec Ideal S1024x64 .bf16)
variable (M L : Vec Ideal S2048x1 .f32) (A : Vec Ideal S2048x64 .f32)
variable (s v : ℕ → Fin 1024 → EReal) (j : ℕ) (p : Fin 2048)

/-- The maximum advances by one tile. -/
theorem step_M (hs : ∀ b, tileScore x0 x1 p b = s j b) (hM : M (ix2 p (0 : Fin 1)) = runM s j) :
    newM (F := Ideal) x0 x1 M (ix2 p (0 : Fin 1)) = runM s (j + 1) := by
  rw [newM_at, hM]
  simp only [hs]
  rfl

/-- The total weight advances by one tile. -/
theorem step_L (hs : ∀ b, tileScore x0 x1 p b = s j b) (hM : M (ix2 p (0 : Fin 1)) = runM s j)
    (hL : L (ix2 p (0 : Fin 1)) = runL s j) :
    newL (F := Ideal) x0 x1 M L (ix2 p (0 : Fin 1)) = runL s (j + 1) := by
  rw [newL_at, step_M x0 x1 M s j p hs hM, hM, hL]
  simp only [hs]
  rfl

/-- The weighted sum advances by one tile. -/
theorem step_A (e : Fin 64) (hs : ∀ b, tileScore x0 x1 p b = s j b) (hv : ∀ b, x2 (ix2 b e) = v j b)
    (hM : M (ix2 p (0 : Fin 1)) = runM s j) (hA : A (ix2 p e) = runA s v j) :
    newA (F := Ideal) x0 x1 x2 M A (ix2 p e) = runA s v (j + 1) := by
  rw [newA_at, step_M x0 x1 M s j p hs hM, hM, hA]
  simp only [hs, hv]
  rfl

/-- At the last key tile the stored entry is the advanced sum over the advanced total. -/
theorem step_out (e : Fin 64) (hs : ∀ b, tileScore x0 x1 p b = s j b) (hv : ∀ b, x2 (ix2 b e) = v j b)
    (hM : M (ix2 p (0 : Fin 1)) = runM s j) (hL : L (ix2 p (0 : Fin 1)) = runL s j) (hA : A (ix2 p e) = runA s v j) :
    outQ (F := Ideal) x0 x1 x2 M L A (ix2 p e) = Ideal.div (runA s v (j + 1)) (runL s (j + 1)) := by
  rw [outQ_at, step_A x0 x1 x2 M A s v j p e hs hv hM hA, step_L x0 x1 M L s j p hs hM hL]

end Cert.KernelIdeal.Step

end
-- ==== Proof.LibAttnRow.lean ====
/-
  One query row of scaled-dot-product attention, on the extended reals, in the two arrangements the two programs
  compute, and that the two agree when every entry is a real number.

  For a query row q (length d), keys K and values V (n rows of length d each) and a scale c, the scores are
  s j = (∑ t, q t * K j t) * c, their top is M = sup_j s j, the weights are w j = exp (s j - M), and the row of the
  result is  (∑ j, w j * V j e) / (∑ j, w j)  — the weighted sum of the value rows divided ONCE by the total
  weight — or  ∑ j, (w j / (0 + ∑ j', w j')) * V j e  with the top taken as max ⊥ M — each weight normalised
  first. With real entries every weight is a positive real and the total weight a positive real D, so a quotient by
  D is a product with 1 / D, and the product with 1 / D moves across the finite sum: the two rows are equal.
-/
import Idealize.ShloMosaic.PureOps.Ideal

noncomputable section

namespace Cert.RowAlgebra

open Idealize.ShloMosaic
open scoped BigOperators

variable {n d : ℕ}

/-- The scaled score of key row j against the query row. -/
def score (c : EReal) (q : Fin d → EReal) (K : Fin n → Fin d → EReal) (j : Fin n) : EReal :=
  (∑ t : Fin d, q t * K j t) * c

/-- The largest score. -/
def top (s : Fin n → EReal) : EReal := (Finset.univ : Finset (Fin n)).sup s

/-- The row with the weighted sum of value rows divided once by the total weight. -/
def rowOnce (c : EReal) (q : Fin d → EReal) (K V : Fin n → Fin d → EReal) (e : Fin d) : EReal :=
  Ideal.div (∑ j : Fin n, Ideal.exp (score c q K j - top (score c q K)) * V j e)
    (∑ j : Fin n, Ideal.exp (score c q K j - top (score c q K)))

/-- The row with each weight normalised before the value rows are combined. -/
def rowEach (c : EReal) (q : Fin d → EReal) (K V : Fin n → Fin d → EReal) (e : Fin d) : EReal :=
  ∑ j : Fin n, Ideal.div (Ideal.exp (score c q K j - max ⊥ (top (score c q K))))
    (0 + ∑ j' : Fin n, Ideal.exp (score c q K j' - max ⊥ (top (score c q K)))) * V j e

/-- A finite sum of real numbers, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- With real entries the two arrangements of the row agree. -/
theorem rowOnce_eq_rowEach (hn : 0 < n) (c : EReal) (q : Fin d → EReal) (K V : Fin n → Fin d → EReal)
    (hc : ∃ r : ℝ, c = (r : EReal)) (hq : ∀ t, ∃ r : ℝ, q t = (r : EReal))
    (hK : ∀ j t, ∃ r : ℝ, K j t = (r : EReal)) (hV : ∀ j t, ∃ r : ℝ, V j t = (r : EReal)) (e : Fin d) :
    rowOnce c q K V e = rowEach c q K V e := by
  obtain ⟨c', rfl⟩ := hc
  choose q' hq' using hq
  choose K' hK' using hK
  choose V' hV' using hV
  -- the scores are real
  have hs : ∀ j, score (c' : EReal) q K j = ((∑ t : Fin d, q' t * K' j t) * c' : ℝ) := fun j => by
    unfold score
    rw [EReal.coe_mul, coe_sum]
    refine congrArg (· * (c' : EReal)) (Finset.sum_congr rfl fun t _ => ?_)
    rw [hq', hK', EReal.coe_mul]
  -- so is their top: it is one of them
  haveI : Nonempty (Fin n) := ⟨⟨0, hn⟩⟩
  obtain ⟨j0, -, hj0⟩ := Finset.exists_mem_eq_sup (Finset.univ : Finset (Fin n)) Finset.univ_nonempty (score (c' : EReal) q K)
  have hM : top (score (c' : EReal) q K) = (((∑ t : Fin d, q' t * K' j0 t) * c' : ℝ) : EReal) := by
    unfold top; rw [hj0, hs]
  generalize hMr : ((∑ t : Fin d, q' t * K' j0 t) * c' : ℝ) = M at hM
  -- the weights are positive reals
  have hw : ∀ j, Ideal.exp (score (c' : EReal) q K j - top (score (c' : EReal) q K))
      = ((Real.exp ((∑ t : Fin d, q' t * K' j t) * c' - M) : ℝ) : EReal) := fun j => by
    rw [hs, hM, ← EReal.coe_sub]; rfl
  have hD : (∑ j : Fin n, Real.exp ((∑ t : Fin d, q' t * K' j t) * c' - M)) ≠ 0 :=
    ne_of_gt (Finset.sum_pos (fun j _ => Real.exp_pos _) Finset.univ_nonempty)
  unfold rowOnce rowEach
  rw [max_eq_right bot_le, zero_add]
  simp only [hw, hV']
  rw [← coe_sum]
  simp only [Ideal.div_coe hD, ← EReal.coe_mul]
  rw [← coe_sum, ← coe_sum, ← EReal.coe_mul]
  refine congrArg _ ?_
  rw [Finset.sum_mul]
  exact Finset.sum_congr rfl fun j _ => by ring

end Cert.RowAlgebra

end
-- ==== Proof.Spec.lean ====
/-
  What the two programs compute, as one function of the five argument arrays, on the extended reals.

  With hidden and query of 16384 rows and 64 columns and three 64 × 64 matrices, the queries, keys and values are the
  projections  q = query · Wq,  k = hidden · Wk,  v = hidden · Wv  (each entry a sum of 64 products), and row r of the
  result is the softmax-attention row of q's row r against all 16384 keys and values with the scores scaled by 1/8:
  entry (r, e) is  (∑ j, w j * v j e) / (∑ j, w j)  with  w j = exp (s j - sup s)  and  s j = (∑ t, q r t * k j t) * (1/8).
  The same entry with each weight normalised first is the other arrangement; with real arguments the two agree.
-/
import Idealize.ShloMosaic.PureOps.Ideal
import Idealize.ShloMosaic.Lib.ValueIdx
import proofs.«122753_j60387240182493_2_alg».proof.Proof.LibAttnRow

noncomputable section

namespace Cert.Spec

open Idealize.ShloMosaic Idealize.ShloMosaic.ValueIdx Cert.RowAlgebra
open scoped BigOperators

/-- The shape of hidden, query and the result: 16384 rows of 64. -/
abbrev Big : Shape := ⟨2, ![16384, 64]⟩
/-- The shape of a projection matrix. -/
abbrev Sq : Shape := ⟨2, ![64, 64]⟩

/-- Entry (r, t) of the product of a 16384 × 64 array with a 64 × 64 matrix. -/
def proj (X : Big.Idx → EReal) (W : Sq.Idx → EReal) (r : Fin 16384) (t : Fin 64) : EReal :=
  ∑ c : Fin 64, X (ix2 r c) * W (ix2 c t)

/-- The score scale, one eighth: the reciprocal of the square root of the width 64. -/
def scale : EReal := ((1 / 8 : ℝ) : EReal)

/-- Entry (r, e) of the result, the weighted sum of the value rows divided once by the total weight. -/
def attnOnce (H Q : Big.Idx → EReal) (Wq Wk Wv : Sq.Idx → EReal) (r : Fin 16384) (e : Fin 64) : EReal :=
  rowOnce scale (proj Q Wq r) (proj H Wk) (proj H Wv) e

/-- Entry (r, e) of the result with each weight normalised before the value rows are combined. -/
def attnEach (H Q : Big.Idx → EReal) (Wq Wk Wv : Sq.Idx → EReal) (r : Fin 16384) (e : Fin 64) : EReal :=
  rowEach scale (proj Q Wq r) (proj H Wk) (proj H Wv) e

/-- The whole result array. -/
def G (H Q : Big.Idx → EReal) (Wq Wk Wv : Sq.Idx → EReal) : Big.Idx → EReal :=
  fun i => attnOnce H Q Wq Wk Wv (i 0) (i 1)

/-- A projection of real arrays is real: a finite sum of products of real numbers. -/
theorem proj_real (X : Big.Idx → EReal) (W : Sq.Idx → EReal) (hX : ∀ i, ∃ x : ℝ, X i = (x : EReal))
    (hW : ∀ i, ∃ x : ℝ, W i = (x : EReal)) (r : Fin 16384) (t : Fin 64) : ∃ x : ℝ, proj X W r t = (x : EReal) := by
  choose X' hX' using hX
  choose W' hW' using hW
  refine ⟨∑ c : Fin 64, X' (ix2 r c) * W' (ix2 c t), ?_⟩
  unfold proj
  rw [coe_sum]
  exact Finset.sum_congr rfl fun c _ => by rw [hX', hW', EReal.coe_mul]

/-- With real arguments the two arrangements of an entry agree. -/
theorem attnOnce_eq_attnEach (H Q : Big.Idx → EReal) (Wq Wk Wv : Sq.Idx → EReal)
    (hH : ∀ i, ∃ x : ℝ, H i = (x : EReal)) (hQ : ∀ i, ∃ x : ℝ, Q i = (x : EReal))
    (hWq : ∀ i, ∃ x : ℝ, Wq i = (x : EReal)) (hWk : ∀ i, ∃ x : ℝ, Wk i = (x : EReal))
    (hWv : ∀ i, ∃ x : ℝ, Wv i = (x : EReal)) (r : Fin 16384) (e : Fin 64) :
    attnOnce H Q Wq Wk Wv r e = attnEach H Q Wq Wk Wv r e :=
  rowOnce_eq_rowEach (by norm_num) scale _ _ _ ⟨1 / 8, rfl⟩ (proj_real Q Wq hQ hWq r)
    (proj_real H Wk hH hWk) (proj_real H Wv hH hWv) e

end Cert.Spec

end
-- ==== Proof.Blocks.lean ====
/-
  What the kernel's three input blocks hold at a grid point, in terms of the five argument arrays.

  Before the pipelined region the program projects the queries (query · Wq), the keys (hidden · Wk) and the values
  (hidden · Wv), scales the queries by one eighth, and converts the three arrays to a narrower float format — the
  identity on the extended reals. The region walks an 8 × 16 grid: at point t = 16 · i + j it is handed rows
  2048 · i … 2048 · i + 2047 of the scaled queries and rows 1024 · j … 1024 · j + 1023 of the keys and of the values,
  all 64 columns of each. So every entry of a block is an entry of a projection, a sum of 64 products of argument
  entries (times the word of one eighth, for a query).
-/
import proofs.«122753_j60387240182493_2_alg».proof.Proof.Gen.KernelIdeal.Frame
import proofs.«122753_j60387240182493_2_alg».proof.Proof.Spec
import proofs.«122753_j60387240182493_2_alg».proof.Proof.LibDot
import Idealize.ShloMosaic.Lib.StableHlo.Run
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.ShloMosaic.ValueIdx Idealize.SL.Sem
open scoped BigOperators

variable (m : (ℓ : Loc nD τ sig) → Buf (Elt Ideal) ℓ)

/-! ## The grid's index maps, decided once

The grid is 8 × 16 and point t has coordinates (t / 16, t % 16). The query window's block index is the first
coordinate, the key and value windows' the second; every window takes all 64 columns. -/

theorem qwin_index : ∀ t : Fin cfg0.N, win0_0.index t 0 = t.val / 16 ∧ win0_0.index t 1 = 0 :=
  (by decide +kernel : ∀ t : Fin grid0.N, win0_0.index t 0 = t.val / 16 ∧ win0_0.index t 1 = 0)
theorem kwin_index : ∀ t : Fin cfg0.N, win0_1.index t 0 = t.val % 16 ∧ win0_1.index t 1 = 0 :=
  (by decide +kernel : ∀ t : Fin grid0.N, win0_1.index t 0 = t.val % 16 ∧ win0_1.index t 1 = 0)
theorem vwin_index : ∀ t : Fin cfg0.N, win0_2.index t 0 = t.val % 16 ∧ win0_2.index t 1 = 0 :=
  (by decide +kernel : ∀ t : Fin grid0.N, win0_2.index t 0 = t.val % 16 ∧ win0_2.index t 1 = 0)

/-! ## The three staged arrays as terms of the arguments

Before the region the host projects the queries, keys and values, multiplies the queries by the word of one eighth,
and converts the three to the narrower format, which on the extended reals changes nothing. -/

/-- The scaled queries: (query · Wq) times the splat of the word 0x3E000000, converted. -/
theorem qarr_eq (c : Dev nD) : (V m c main_v5 : S16384x64.Idx → EReal)
    = truncf (F := Ideal) .bf16 (mulf (F := Ideal) (Host.dotGeneral (F := Ideal) (φ₁ := .f32) (φ₂ := .f32) dot_S16384x64_S64x64_S16384x64_1_0_0_1_n_n none (m ((c : Thread nD τ).loc main_arg1)) (m ((c : Thread nD τ).loc main_arg2)))
        (broadcastInDim S16384x64 ![] bcast_S_S16384x64 (constant (F := Ideal) S_ .f32 0x3E000000#32))) bitsLt_bf16_f32 := by
  dsimp only [Gen.V, Gen.hostOps0]; after_results

/-- The keys: hidden · Wk, converted. -/
theorem karr_eq (c : Dev nD) : (V m c main_v6 : S16384x64.Idx → EReal)
    = truncf (F := Ideal) .bf16 (Host.dotGeneral (F := Ideal) (φ₁ := .f32) (φ₂ := .f32) dot_S16384x64_S64x64_S16384x64_1_0_0_1_n_n none (m ((c : Thread nD τ).loc main_arg0)) (m ((c : Thread nD τ).loc main_arg3))) bitsLt_bf16_f32 := by
  dsimp only [Gen.V, Gen.hostOps0]; after_results

/-- The values: hidden · Wv, converted. -/
theorem varr_eq (c : Dev nD) : (V m c main_v7 : S16384x64.Idx → EReal)
    = truncf (F := Ideal) .bf16 (Host.dotGeneral (F := Ideal) (φ₁ := .f32) (φ₂ := .f32) dot_S16384x64_S64x64_S16384x64_1_0_0_1_n_n none (m ((c : Thread nD τ).loc main_arg0)) (m ((c : Thread nD τ).loc main_arg4))) bitsLt_bf16_f32 := by
  dsimp only [Gen.V, Gen.hostOps0]; after_results

/-! ## The three arrays at an index -/

/-- Entry (r, cc) of the scaled queries: the projection's entry times the word of one eighth. -/
theorem qarr_at (c : Dev nD) (r : Fin 16384) (cc : Fin 64) :
    (V m c main_v5 : S16384x64.Idx → EReal) (ix2 r cc)
      = Cert.Spec.proj (m ((c : Thread nD τ).loc main_arg1)) (m ((c : Thread nD τ).loc main_arg2)) r cc * Ideal.ofBits .f32 0x3E000000#32 :=
  (congrFun (qarr_eq m c) (ix2 r cc)).trans
    (congrArg (· * Ideal.ofBits .f32 0x3E000000#32)
      (Cert.LibDot.dotGeneral_apply (φ₁ := .f32) (φ₂ := .f32) dot_S16384x64_S64x64_S16384x64_1_0_0_1_n_n.wf none (m ((c : Thread nD τ).loc main_arg1)) (m ((c : Thread nD τ).loc main_arg2)) r cc))

/-- Entry (k, cc) of the keys. -/
theorem karr_at (c : Dev nD) (k : Fin 16384) (cc : Fin 64) :
    (V m c main_v6 : S16384x64.Idx → EReal) (ix2 k cc) = Cert.Spec.proj (m ((c : Thread nD τ).loc main_arg0)) (m ((c : Thread nD τ).loc main_arg3)) k cc :=
  (congrFun (karr_eq m c) (ix2 k cc)).trans
    (Cert.LibDot.dotGeneral_apply (φ₁ := .f32) (φ₂ := .f32) dot_S16384x64_S64x64_S16384x64_1_0_0_1_n_n.wf none (m ((c : Thread nD τ).loc main_arg0)) (m ((c : Thread nD τ).loc main_arg3)) k cc)

/-- Entry (k, e) of the values. -/
theorem varr_at (c : Dev nD) (k : Fin 16384) (e : Fin 64) :
    (V m c main_v7 : S16384x64.Idx → EReal) (ix2 k e) = Cert.Spec.proj (m ((c : Thread nD τ).loc main_arg0)) (m ((c : Thread nD τ).loc main_arg4)) k e :=
  (congrFun (varr_eq m c) (ix2 k e)).trans
    (Cert.LibDot.dotGeneral_apply (φ₁ := .f32) (φ₂ := .f32) dot_S16384x64_S64x64_S16384x64_1_0_0_1_n_n.wf none (m ((c : Thread nD τ).loc main_arg0)) (m ((c : Thread nD τ).loc main_arg4)) k e)

/-! ## The blocks read off their arrays

A block's coordinate is the window's index times the block's extent plus the coordinate inside the block: the query
block of point t is rows 2048 · (t / 16) …, the key and value blocks are rows 1024 · (t % 16) …, all columns. -/

/-- Entry (p, cc) of the query block at point t is entry (2048 · (t / 16) + p, cc) of the scaled queries. -/
theorem qblk_read (c : Dev nD) (t : Fin cfg0.N) (p : Fin 2048) (cc : Fin 64) (r : Fin 16384)
    (hr : r.val = 2048 * (t.val / 16) + p.val) :
    (iblk m c 0 t : Vec Ideal S2048x64 .bf16) (ix2 p cc) = (V m c main_v5 : S16384x64.Idx → EReal) (ix2 r cc) := by
  have hi := qwin_index t
  unfold iblk
  rw [View.read_apply]
  show V m c main_v5 _ = V m c main_v5 _
  congr 1
  funext a
  apply Fin.ext
  match a with
  | ⟨0, _⟩ => show win0_0.index t 0 * 2048 + 1 * p.val = r.val; rw [hi.1, hr]; omega
  | ⟨1, _⟩ => show win0_0.index t 1 * 64 + 1 * cc.val = cc.val; rw [hi.2]; omega

/-- Entry (b, cc) of the key block at point t is entry (1024 · (t % 16) + b, cc) of the keys. -/
theorem kblk_read (c : Dev nD) (t : Fin cfg0.N) (b : Fin 1024) (cc : Fin 64) (k : Fin 16384)
    (hk : k.val = 1024 * (t.val % 16) + b.val) :
    (iblk m c 1 t : Vec Ideal S1024x64 .bf16) (ix2 b cc) = (V m c main_v6 : S16384x64.Idx → EReal) (ix2 k cc) := by
  have hi := kwin_index t
  unfold iblk
  rw [View.read_apply]
  show V m c main_v6 _ = V m c main_v6 _
  congr 1
  funext a
  apply Fin.ext
  match a with
  | ⟨0, _⟩ => show win0_1.index t 0 * 1024 + 1 * b.val = k.val; rw [hi.1, hk]; omega
  | ⟨1, _⟩ => show win0_1.index t 1 * 64 + 1 * cc.val = cc.val; rw [hi.2]; omega

/-- Entry (b, e) of the value block at point t is entry (1024 · (t % 16) + b, e) of the values. -/
theorem vblk_read (c : Dev nD) (t : Fin cfg0.N) (b : Fin 1024) (e : Fin 64) (k : Fin 16384)
    (hk : k.val = 1024 * (t.val % 16) + b.val) :
    (iblk m c 2 t : Vec Ideal S1024x64 .bf16) (ix2 b e) = (V m c main_v7 : S16384x64.Idx → EReal) (ix2 k e) := by
  have hi := vwin_index t
  unfold iblk
  rw [View.read_apply]
  show V m c main_v7 _ = V m c main_v7 _
  congr 1
  funext a
  apply Fin.ext
  match a with
  | ⟨0, _⟩ => show win0_2.index t 0 * 1024 + 1 * b.val = k.val; rw [hi.1, hk]; omega
  | ⟨1, _⟩ => show win0_2.index t 1 * 64 + 1 * e.val = e.val; rw [hi.2]; omega

/-! ## The blocks in terms of the arguments -/

/-- The query block at point t holds rows 2048 · (t / 16) … of query · Wq, each entry times the word of one eighth. -/
theorem qblk_at (c : Dev nD) (t : Fin cfg0.N) (p : Fin 2048) (cc : Fin 64) (r : Fin 16384)
    (hr : r.val = 2048 * (t.val / 16) + p.val) :
    (iblk m c 0 t : Vec Ideal S2048x64 .bf16) (ix2 p cc)
      = Cert.Spec.proj (m ((c : Thread nD τ).loc main_arg1)) (m ((c : Thread nD τ).loc main_arg2)) r cc * Ideal.ofBits .f32 0x3E000000#32 :=
  (qblk_read m c t p cc r hr).trans (qarr_at m c r cc)

/-- The key block at point t holds rows 1024 · (t % 16) … of hidden · Wk. -/
theorem kblk_at (c : Dev nD) (t : Fin cfg0.N) (b : Fin 1024) (cc : Fin 64) (k : Fin 16384)
    (hk : k.val = 1024 * (t.val % 16) + b.val) :
    (iblk m c 1 t : Vec Ideal S1024x64 .bf16) (ix2 b cc) = Cert.Spec.proj (m ((c : Thread nD τ).loc main_arg0)) (m ((c : Thread nD τ).loc main_arg3)) k cc :=
  (kblk_read m c t b cc k hk).trans (karr_at m c k cc)

/-- The value block at point t holds rows 1024 · (t % 16) … of hidden · Wv. -/
theorem vblk_at (c : Dev nD) (t : Fin cfg0.N) (b : Fin 1024) (e : Fin 64) (k : Fin 16384)
    (hk : k.val = 1024 * (t.val % 16) + b.val) :
    (iblk m c 2 t : Vec Ideal S1024x64 .bf16) (ix2 b e) = Cert.Spec.proj (m ((c : Thread nD τ).loc main_arg0)) (m ((c : Thread nD τ).loc main_arg4)) k e :=
  (vblk_read m c t b e k hk).trans (varr_at m c k e)

end Cert.KernelIdeal.Blocks

end
-- ==== Proof.LibSumScale.lean ====
/-
  Scaling a finite sum of extended reals.

  The extended reals are not a semiring: a product does not distribute over a sum when the factor is infinite or
  negative and the summands are infinite of both signs.  A factor that is a nonnegative real does distribute,
  over every finite sum and whatever the summands, infinite ones included (the sum of an infinite positive and an
  infinite negative entry is the negative infinity on both sides).  So a finite sum divided by a positive real d
  is the sum of the entries each multiplied by 1 / d: the mean of n entries taken as "sum, then divide by n" and
  as "scale each entry by 1 / n, then sum" agree with no finiteness assumption on the entries.
-/
import Idealize.ShloMosaic.PureOps.Ideal

noncomputable section

namespace Cert.LibSumScale

open Idealize.ShloMosaic
open scoped BigOperators

/-- Multiplication by a nonnegative finite extended real distributes over a finite sum of extended reals. -/
theorem sum_mul_of_nonneg {ι : Type} (s : Finset ι) (y : ι → EReal) {a : EReal} (h0 : 0 ≤ a) (ht : a ≠ ⊤) :
    (∑ k ∈ s, y k) * a = ∑ k ∈ s, y k * a := by
  classical
  induction s using Finset.induction_on with
  | empty => simp
  | insert k s hk ih =>
    rw [Finset.sum_insert hk, Finset.sum_insert hk, EReal.right_distrib_of_nonneg_of_ne_top h0 ht, ih]

/-- The same with the factor on the left. -/
theorem mul_sum_of_nonneg {ι : Type} (s : Finset ι) (y : ι → EReal) {a : EReal} (h0 : 0 ≤ a) (ht : a ≠ ⊤) :
    a * (∑ k ∈ s, y k) = ∑ k ∈ s, a * y k := by
  rw [mul_comm, sum_mul_of_nonneg s y h0 ht]
  exact Finset.sum_congr rfl fun k _ => mul_comm _ _

/-- A finite sum divided by a positive real is the sum of the entries each multiplied by its reciprocal. -/
theorem sum_div_coe {ι : Type} (s : Finset ι) (y : ι → EReal) {d : ℝ} (hd : 0 < d) :
    Ideal.div (∑ k ∈ s, y k) (d : EReal) = ∑ k ∈ s, y k * ((1 / d : ℝ) : EReal) := by
  rw [Ideal.div_coe (ne_of_gt hd)]
  exact sum_mul_of_nonneg s y (by exact_mod_cast (le_of_lt (one_div_pos.mpr hd))) (EReal.coe_ne_top _)

end Cert.LibSumScale

end
-- ==== Proof.EntryBridge.lean ====
/-
  One entry of the result as the streaming computation spells it is the specification's entry.

  The streaming computation scales the QUERY row by one eighth before the 64 products of a score, where the
  specification scales the finished sum of products: (q t · ⅛) · k t = (q t · k t) · ⅛ term by term, and a
  nonnegative real factor moves out of a finite sum of extended reals, so the two scores are one number. It
  walks the 16384 keys in 16 tiles of 1024, entry b of tile j being key j·1024 + b, carrying the running
  maximum, total weight and weighted sum; with real arguments every score (a sum of products of real numbers
  times a real) and every value is real, so the streamed quotient after the 16 tiles is the one-shot quotient
  over all the keys — the specification's entry.
-/
import proofs.«122753_j60387240182493_2_alg».proof.Proof.Spec
import proofs.«122753_j60387240182493_2_alg».proof.Proof.LibStream
import proofs.«122753_j60387240182493_2_alg».proof.Proof.LibSumScale

noncomputable section

namespace Cert.Bridge

open Idealize.ShloMosaic
open scoped BigOperators

/-- global key row of entry b of tile j (read modulo 16384 so that it is total) -/
def keyRow (j : ℕ) (b : Fin 1024) : Fin 16384 := ⟨(j * 1024 + b.val) % 16384, Nat.mod_lt _ (by norm_num)⟩

/-- the f32 word 0x3E000000 is one eighth -/
theorem eighth : Ideal.ofBits .f32 0x3E000000#32 = ((1 / 8 : ℝ) : EReal) := by
  simp [Ideal.ofBits, Ideal.ieee, -EReal.coe_mul]; norm_num

/-- the kernel's score of query row r against key (j, b): the scaled query row times the key row -/
def kScore (H Q : Cert.Spec.Big.Idx → EReal) (Wq Wk : Cert.Spec.Sq.Idx → EReal) (r : Fin 16384) (j : ℕ) (b : Fin 1024) : EReal :=
  ∑ c : Fin 64, (Cert.Spec.proj Q Wq r c * Ideal.ofBits .f32 0x3E000000#32) * Cert.Spec.proj H Wk (keyRow j b) c

/-- the value the kernel pairs with it, at result column e -/
def kVal (H : Cert.Spec.Big.Idx → EReal) (Wv : Cert.Spec.Sq.Idx → EReal) (e : Fin 64) (j : ℕ) (b : Fin 1024) : EReal :=
  Cert.Spec.proj H Wv (keyRow j b) e

/-- Scaling each factor of the query row by one eighth scales the sum of products by one eighth: the factor
    commutes past the key entry in each product and, being a nonnegative real, moves out of the finite sum. -/
theorem sum_scaled_query {d : ℕ} (q k : Fin d → EReal) :
    ∑ c : Fin d, (q c * ((1 / 8 : ℝ) : EReal)) * k c = (∑ t : Fin d, q t * k t) * ((1 / 8 : ℝ) : EReal) := by
  have h0 : (0 : EReal) ≤ ((1 / 8 : ℝ) : EReal) := by exact_mod_cast (by norm_num : (0 : ℝ) ≤ 1 / 8)
  rw [Cert.LibSumScale.sum_mul_of_nonneg _ _ h0 (EReal.coe_ne_top _)]
  exact Finset.sum_congr rfl fun c _ => mul_right_comm _ _ _

/-- The streamed scores are the specification's scores, tile by tile. -/
theorem kScore_eq_tile (H Q : Cert.Spec.Big.Idx → EReal) (Wq Wk : Cert.Spec.Sq.Idx → EReal) (r : Fin 16384) :
    kScore H Q Wq Wk r
      = Cert.Stream.tile (B := 1024) (by norm_num : 0 < 16384)
          (Cert.RowAlgebra.score Cert.Spec.scale (Cert.Spec.proj Q Wq r) (Cert.Spec.proj H Wk)) := by
  funext j b
  show ∑ c : Fin 64, (Cert.Spec.proj Q Wq r c * Ideal.ofBits .f32 0x3E000000#32) * Cert.Spec.proj H Wk (keyRow j b) c
    = (∑ t : Fin 64, Cert.Spec.proj Q Wq r t * Cert.Spec.proj H Wk (keyRow j b) t) * ((1 / 8 : ℝ) : EReal)
  rw [eighth]
  exact sum_scaled_query _ _

/-- The streamed values are column e of the specification's values, tile by tile. -/
theorem kVal_eq_tile (H : Cert.Spec.Big.Idx → EReal) (Wv : Cert.Spec.Sq.Idx → EReal) (e : Fin 64) :
    kVal H Wv e = Cert.Stream.tile (B := 1024) (by norm_num : 0 < 16384) (fun k => Cert.Spec.proj H Wv k e) := by
  funext j b
  rfl

/-- A scaled score of real rows at a real scale is real: a finite sum of products of real numbers, times a
    real number. -/
theorem score_real {n d : ℕ} (c : ℝ) (q : Fin d → EReal) (K : Fin n → Fin d → EReal)
    (hq : ∀ t, ∃ x : ℝ, q t = (x : EReal)) (hK : ∀ k t, ∃ x : ℝ, K k t = (x : EReal)) (k : Fin n) :
    ∃ x : ℝ, Cert.RowAlgebra.score (c : EReal) q K k = (x : EReal) := by
  choose q' hq' using hq
  choose K' hK' using hK
  refine ⟨(∑ t : Fin d, q' t * K' k t) * c, ?_⟩
  unfold Cert.RowAlgebra.score
  rw [EReal.coe_mul, Cert.Stream.coe_sum]
  refine congrArg (· * (c : EReal)) (Finset.sum_congr rfl fun t _ => ?_)
  rw [hq', hK', EReal.coe_mul]

/-- With real arguments, the streamed quotient of entry (r, e) after the 16 tiles of 1024 keys is the
    specification's entry: the streamed scores and values are the specification's, tile by tile, all real, and
    streaming over the tiles gives the one-shot quotient over all 16384 keys. -/
theorem stream_entry (H Q : Cert.Spec.Big.Idx → EReal) (Wq Wk Wv : Cert.Spec.Sq.Idx → EReal)
    (hH : ∀ i, ∃ x : ℝ, H i = (x : EReal)) (hQ : ∀ i, ∃ x : ℝ, Q i = (x : EReal)) (hWq : ∀ i, ∃ x : ℝ, Wq i = (x : EReal))
    (hWk : ∀ i, ∃ x : ℝ, Wk i = (x : EReal)) (hWv : ∀ i, ∃ x : ℝ, Wv i = (x : EReal)) (r : Fin 16384) (e : Fin 64) :
    Ideal.div (Cert.Stream.runA (kScore H Q Wq Wk r) (kVal H Wv e) 16) (Cert.Stream.runL (kScore H Q Wq Wk r) 16)
      = Cert.Spec.attnOnce H Q Wq Wk Wv r e := by
  have hw : ∀ k : Fin 16384, ∃ x : ℝ,
      Cert.RowAlgebra.score Cert.Spec.scale (Cert.Spec.proj Q Wq r) (Cert.Spec.proj H Wk) k = (x : EReal) :=
    score_real (1 / 8) _ _ (Cert.Spec.proj_real Q Wq hQ hWq r) (Cert.Spec.proj_real H Wk hH hWk)
  have hu : ∀ k : Fin 16384, ∃ x : ℝ, Cert.Spec.proj H Wv k e = (x : EReal) :=
    fun k => Cert.Spec.proj_real H Wv hH hWv k e
  rw [kScore_eq_tile, kVal_eq_tile]
  exact Cert.Stream.run_div 16 (by norm_num) (by norm_num) (by norm_num) (by norm_num) _ _ hw hu

end Cert.Bridge

end
-- ==== Proof.Invariant.lean ====
/-
  What the three scratch arrays hold after every grid point.

  The grid is 8 query tiles by 16 key tiles, walked row-major: point t is key tile t % 16 of query tile t / 16. Row p of
  query tile t / 16 is global query row r = 2048 * (t / 16) + p. After point t the scratch arrays hold, at row p, the
  streamed maximum, total weight and weighted sum of row r over the first t % 16 + 1 key tiles: at the first key tile
  the body resets them and updates from the reset values; at every other it updates what the point before left, which
  belongs to the same query tile. At the last key tile the output block receives the quotient of the sum by the total.
-/
import proofs.«122753_j60387240182493_2_alg».proof.Proof.Gen.KernelIdeal.Value
import proofs.«122753_j60387240182493_2_alg».proof.Proof.Pieces
import proofs.«122753_j60387240182493_2_alg».proof.Proof.Step
import proofs.«122753_j60387240182493_2_alg».proof.Proof.Blocks
import proofs.«122753_j60387240182493_2_alg».proof.Proof.EntryBridge

noncomputable section

namespace Cert.KernelIdeal.Inv

open Cert.KernelIdeal Cert.KernelIdeal.Gen Cert.KernelIdeal.Pieces Cert.KernelIdeal.PayIdx Cert.KernelIdeal.Step
open Cert.KernelIdeal.Blocks Cert.Stream Cert.Bridge
open Idealize.ShloMosaic Idealize.ShloMosaic.TcCoe Idealize.ShloMosaic.ValueIdx Idealize.SL.Sem
open scoped BigOperators

variable (m : (ℓ : Loc nD τ sig) → Buf (Elt Ideal) ℓ)

/-- The five argument arrays of core c, read as functions. -/
abbrev aH (c : Dev nD) : S16384x64.Idx → EReal := m ((c : Thread nD τ).loc main_arg0)
abbrev aQ (c : Dev nD) : S16384x64.Idx → EReal := m ((c : Thread nD τ).loc main_arg1)
abbrev aWq (c : Dev nD) : S64x64.Idx → EReal := m ((c : Thread nD τ).loc main_arg2)
abbrev aWk (c : Dev nD) : S64x64.Idx → EReal := m ((c : Thread nD τ).loc main_arg3)
abbrev aWv (c : Dev nD) : S64x64.Idx → EReal := m ((c : Thread nD τ).loc main_arg4)

/-- The scores of global query row r against every key, tile by tile, in the kernel's spelling. -/
abbrev kS (c : Dev nD) (r : Fin 16384) : ℕ → Fin 1024 → EReal := kScore (aH m c) (aQ m c) (aWq m c) (aWk m c) r
/-- The values at result column e, tile by tile. -/
abbrev kV (c : Dev nD) (e : Fin 64) : ℕ → Fin 1024 → EReal := kVal (aH m c) (aWv m c) e

/-- The point's three input blocks at their literal shapes. -/
abbrev X0 (c : Dev nD) (t : Fin cfg0.N) : Vec Ideal S2048x64 .bf16 := iblk m c 0 t
abbrev X1 (c : Dev nD) (t : Fin cfg0.N) : Vec Ideal S1024x64 .bf16 := iblk m c 1 t
abbrev X2 (c : Dev nD) (t : Fin cfg0.N) : Vec Ideal S1024x64 .bf16 := iblk m c 2 t

/-- Entry b of key tile j < 16 is global key row 1024 * j + b. -/
theorem keyRow_val (j : ℕ) (hj : j < 16) (b : Fin 1024) : (keyRow j b).val = 1024 * j + b.val := by
  show (j * 1024 + b.val) % 16384 = 1024 * j + b.val
  have hb := b.isLt
  rw [Nat.mod_eq_of_lt (by omega)]; omega

/-- The scores of the point's query block against its key block are tile t % 16 of the row's scores. -/
theorem scores_at (c : Dev nD) (t : Fin cfg0.N) (p : Fin 2048) (r : Fin 16384) (hr : r.val = 2048 * (t.val / 16) + p.val)
    (b : Fin 1024) : tileScore (X0 m c t) (X1 m c t) p b = kS m c r (t.val % 16) b := by
  unfold tileScore
  show _ = ∑ cc : Fin 64, (Cert.Spec.proj (aQ m c) (aWq m c) r cc * Ideal.ofBits .f32 0x3E000000#32)
    * Cert.Spec.proj (aH m c) (aWk m c) (keyRow (t.val % 16) b) cc
  refine Finset.sum_congr rfl fun cc _ => ?_
  rw [show X0 m c t (ix2 p cc) = _ from qblk_at m c t p cc r hr,
    show X1 m c t (ix2 b cc) = _ from kblk_at m c t b cc (keyRow (t.val % 16) b) (keyRow_val _ (Nat.mod_lt _ (by norm_num)) b)]

/-- The point's value block is tile t % 16 of the values. -/
theorem values_at (c : Dev nD) (t : Fin cfg0.N) (e : Fin 64) (b : Fin 1024) :
    X2 m c t (ix2 b e) = kV m c e (t.val % 16) b :=
  vblk_at m c t b e (keyRow (t.val % 16) b) (keyRow_val _ (Nat.mod_lt _ (by norm_num)) b)

/-! ## The three cases, as updates of what the point found -/

/-- At the first key tile of a query tile the scratch arrays receive the update of the reset values. -/
theorem scratch_A (c : Dev nD) (t : Fin cfg0.N) (h0 : t.val % 16 = 0) (h1 : ¬t.val % 16 = 15) :
    (outsAt0 m c t.val t.isLt).2
      = (newM (X0 m c t) (X1 m c t) M0, newL (X0 m c t) (X1 m c t) M0 L0, newA (X0 m c t) (X1 m c t) (X2 m c t) M0 A0) := by
  rw [outsAt0_A m c t h0 h1]
  dsimp only
  refine congrArg₂ Prod.mk ?_ (congrArg₂ Prod.mk ?_ ?_)
  · exact sA0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (X0 m c t) (X1 m c t) (X2 m c t)
  · exact sA1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (X0 m c t) (X1 m c t) (X2 m c t)
  · exact sA2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (X0 m c t) (X1 m c t) (X2 m c t)

/-- At a middle key tile they receive the update of what the point before left. -/
theorem scratch_B (c : Dev nD) (t : Fin cfg0.N) (h0 : ¬t.val % 16 = 0) (h1 : ¬t.val % 16 = 15) :
    (outsAt0 m c t.val t.isLt).2
      = (newM (X0 m c t) (X1 m c t) (outsAt0 m c (t.val - 1) (Nat.lt_of_le_of_lt (Nat.sub_le _ _) t.isLt)).2.1,
         newL (X0 m c t) (X1 m c t) (outsAt0 m c (t.val - 1) (Nat.lt_of_le_of_lt (Nat.sub_le _ _) t.isLt)).2.1 (outsAt0 m c (t.val - 1) (Nat.lt_of_le_of_lt (Nat.sub_le _ _) t.isLt)).2.2.1,
         newA (X0 m c t) (X1 m c t) (X2 m c t) (outsAt0 m c (t.val - 1) (Nat.lt_of_le_of_lt (Nat.sub_le _ _) t.isLt)).2.1 (outsAt0 m c (t.val - 1) (Nat.lt_of_le_of_lt (Nat.sub_le _ _) t.isLt)).2.2.2) := by
  rw [outsAt0_B m c t h0 h1]
  dsimp only
  refine congrArg₂ Prod.mk ?_ (congrArg₂ Prod.mk ?_ ?_)
  · exact sB0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (X0 m c t) (X1 m c t) (X2 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · exact sB1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (X0 m c t) (X1 m c t) (X2 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · exact sB2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (X0 m c t) (X1 m c t) (X2 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- At the last key tile likewise, and the output block receives the quotient. -/
theorem scratch_C (c : Dev nD) (t : Fin cfg0.N) (h0 : ¬t.val % 16 = 0) (h1 : t.val % 16 = 15) :
    (outsAt0 m c t.val t.isLt)
      = (outQ (X0 m c t) (X1 m c t) (X2 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
         newM (X0 m c t) (X1 m c t) (outsAt0 m c (t.val - 1) (Nat.lt_of_le_of_lt (Nat.sub_le _ _) t.isLt)).2.1,
         newL (X0 m c t) (X1 m c t) (outsAt0 m c (t.val - 1) (Nat.lt_of_le_of_lt (Nat.sub_le _ _) t.isLt)).2.1 (outsAt0 m c (t.val - 1) (Nat.lt_of_le_of_lt (Nat.sub_le _ _) t.isLt)).2.2.1,
         newA (X0 m c t) (X1 m c t) (X2 m c t) (outsAt0 m c (t.val - 1) (Nat.lt_of_le_of_lt (Nat.sub_le _ _) t.isLt)).2.1 (outsAt0 m c (t.val - 1) (Nat.lt_of_le_of_lt (Nat.sub_le _ _) t.isLt)).2.2.2) := by
  rw [outsAt0_C m c t h0 h1]
  refine congrArg₂ Prod.mk ?_ (congrArg₂ Prod.mk ?_ (congrArg₂ Prod.mk ?_ ?_))
  · exact oC3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (X0 m c t) (X1 m c t) (X2 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · exact sC0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (X0 m c t) (X1 m c t) (X2 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · exact sC1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (X0 m c t) (X1 m c t) (X2 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · exact sC2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (X0 m c t) (X1 m c t) (X2 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-! ## The invariant -/

/-- After point n the scratch arrays hold, at every row p of the point's query tile, the streamed state of global row
    r = 2048 * (n / 16) + p over the first n % 16 + 1 key tiles. -/
def Holds (c : Dev nD) (n : ℕ) (hn : n < cfg0.N) : Prop :=
  ∀ (p : Fin 2048) (r : Fin 16384), r.val = 2048 * (n / 16) + p.val →
    (outsAt0 m c n hn).2.1 (ix2 p (0 : Fin 1)) = runM (kS m c r) (n % 16 + 1)
    ∧ (outsAt0 m c n hn).2.2.1 (ix2 p (0 : Fin 1)) = runL (kS m c r) (n % 16 + 1)
    ∧ ∀ e : Fin 64, (outsAt0 m c n hn).2.2.2 (ix2 p e) = runA (kS m c r) (kV m c e) (n % 16 + 1)

/-- The invariant at a point from the invariant at the point before (needed only off the first key tile). -/
theorem holds_step (c : Dev nD) (t : Fin cfg0.N)
    (hprev : ¬t.val % 16 = 0 → Holds m c (t.val - 1) (Nat.lt_of_le_of_lt (Nat.sub_le _ _) t.isLt)) :
    Holds m c t.val t.isLt := by
  intro p r hr
  have hs : ∀ b, tileScore (X0 m c t) (X1 m c t) p b = kS m c r (t.val % 16) b := scores_at m c t p r hr
  by_cases h0 : t.val % 16 = 0
  · have h1 : ¬t.val % 16 = 15 := by omega
    have hM : (M0 (F := Ideal)) (ix2 p (0 : Fin 1)) = runM (kS m c r) (t.val % 16) := by rw [M0_at, h0]; rfl
    have hL : (L0 (F := Ideal)) (ix2 p (0 : Fin 1)) = runL (kS m c r) (t.val % 16) := by rw [L0_at, h0]; rfl
    rw [scratch_A m c t h0 h1]
    refine ⟨step_M _ _ _ _ _ p hs hM, step_L _ _ _ _ _ _ p hs hM hL, fun e => ?_⟩
    have hA : (A0 (F := Ideal)) (ix2 p e) = runA (kS m c r) (kV m c e) (t.val % 16) := by rw [A0_at, h0]; rfl
    exact step_A _ _ _ _ _ _ _ _ p e hs (values_at m c t e) hM hA
  · have hdiv : (t.val - 1) / 16 = t.val / 16 := by omega
    have hmod : (t.val - 1) % 16 + 1 = t.val % 16 := by omega
    obtain ⟨hM, hL, hA⟩ := hprev h0 p r (by rw [hdiv]; exact hr)
    rw [hmod] at hM hL
    by_cases h1 : t.val % 16 = 15
    · rw [scratch_C m c t h0 h1]
      refine ⟨step_M _ _ _ _ _ p hs hM, step_L _ _ _ _ _ _ p hs hM hL, fun e => ?_⟩
      have hA' := hA e; rw [hmod] at hA'
      exact step_A _ _ _ _ _ _ _ _ p e hs (values_at m c t e) hM hA'
    · rw [scratch_B m c t h0 h1]
      refine ⟨step_M _ _ _ _ _ p hs hM, step_L _ _ _ _ _ _ p hs hM hL, fun e => ?_⟩
      have hA' := hA e; rw [hmod] at hA'
      exact step_A _ _ _ _ _ _ _ _ p e hs (values_at m c t e) hM hA'

/-- The invariant holds after every point. -/
theorem holds (c : Dev nD) : ∀ (n : ℕ) (hn : n < cfg0.N), Holds m c n hn
  | 0, hn => holds_step m c ⟨0, hn⟩ (fun h => absurd (Nat.zero_mod 16) h)
  | n + 1, hn => holds_step m c ⟨n + 1, hn⟩ (fun _ => holds c n (Nat.lt_of_succ_lt hn))

/-- At the last key tile of query tile n / 16 the output block holds, at (p, e), the streamed quotient of global row r
    over all sixteen key tiles. -/
theorem out_at (c : Dev nD) (t : Fin cfg0.N) (h1 : t.val % 16 = 15) (p : Fin 2048) (e : Fin 64) (r : Fin 16384)
    (hr : r.val = 2048 * (t.val / 16) + p.val) :
    (outsAt0 m c t.val t.isLt).1 (ix2 p e) = Ideal.div (runA (kS m c r) (kV m c e) 16) (runL (kS m c r) 16) := by
  have h0 : ¬t.val % 16 = 0 := by omega
  have hdiv : (t.val - 1) / 16 = t.val / 16 := by omega
  have hmod : (t.val - 1) % 16 + 1 = 15 := by omega
  obtain ⟨hM, hL, hA⟩ := holds m c (t.val - 1) (Nat.lt_of_le_of_lt (Nat.sub_le _ _) t.isLt) p r (by rw [hdiv]; exact hr)
  have hA' := hA e
  rw [hmod] at hM hL hA'
  have hs : ∀ b, tileScore (X0 m c t) (X1 m c t) p b = kS m c r 15 b := by
    intro b; rw [scores_at m c t p r hr b, h1]
  have hv : ∀ b, X2 m c t (ix2 b e) = kV m c e 15 b := by intro b; rw [values_at m c t e b, h1]
  rw [scratch_C m c t h0 h1]
  exact step_out _ _ _ _ _ _ _ _ 15 p e hs hv hM hL hA'

end Cert.KernelIdeal.Inv

end
-- ==== Proof.Final.lean ====
/-
  From the eight flushed blocks to the whole result array.

  The output is written back only at the last key tile of each query tile, points 15, 31, …, 127, and point 16 * a + 15
  writes rows 2048 * a … 2048 * a + 2047 (all 64 columns). Those eight blocks tile the array, and at row r, column e
  each holds the streamed quotient of row r over all sixteen key tiles. So after the run the array is that quotient
  everywhere.
-/
import proofs.«122753_j60387240182493_2_alg».proof.Proof.Invariant

noncomputable section

namespace Cert.KernelIdeal.Final

open Cert.KernelIdeal Cert.KernelIdeal.Gen Cert.KernelIdeal.Inv Cert.Stream Cert.Bridge
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array the kernel leaves: at (r, e) the streamed quotient of query row r at column e. -/
def streamed (c : Dev nD) : S16384x64.Idx → EReal :=
  fun i => Ideal.div (runA (kS m c (i 0)) (kV m c (i 1)) 16) (runL (kS m c (i 0)) 16)

/-- The output window's block index at a point: the query tile, and column block 0 — decided once over the grid. -/
theorem out_index : ∀ t : Fin cfg0.N, win0_3.index t 0 = t.val / 16 ∧ win0_3.index t 1 = 0 :=
  (by decide +kernel : ∀ t : Fin grid0.N, win0_3.index t 0 = t.val / 16 ∧ win0_3.index t 1 = 0)

/-- What a flushing point writes back is its block of the streamed result. -/
theorem flushed_eq (c : Dev nD) (t : Fin cfg0.N) (hf : (cfg0.win 3).flush t = true) :
    (dats m 0 c).flushed 3 t = ((cfg0.win 3).blk t).view.read (Elt Ideal) (streamed m c) := by
  have h15 : t.val % 16 = 15 := (flush0_3 t).mp hf
  rw [Cert.KernelIdeal.Value.flushed3]
  funext y
  obtain ⟨p, e, rfl⟩ : ∃ (p : Fin 2048) (e : Fin 64), y = ix2 p e := ⟨y 0, y 1, eq_ix2 y⟩
  rw [View.read_apply]
  have hi0 : ((((cfg0.win 3).blk t).view.emb (ix2 p e)) 0).val = 2048 * (t.val / 16) + p.val := by
    show win0_3.index t 0 * 2048 + 1 * p.val = _
    rw [(out_index t).1]; omega
  have hi1 : (((cfg0.win 3).blk t).view.emb (ix2 p e)) 1 = e := by
    apply Fin.ext
    show win0_3.index t 1 * 64 + 1 * e.val = _
    rw [(out_index t).2]; omega
  show (outsAt0 m c t.val t.isLt).1 (ix2 p e) = _
  rw [out_at m c t h15 p e _ hi0]
  unfold streamed
  exact congrArg (fun z : Fin 64 =>
    Ideal.div (runA (kS m c (((cfg0.win 3).blk t).view.emb (ix2 p e) 0)) (kV m c z) 16)
      (runL (kS m c (((cfg0.win 3).blk t).view.emb (ix2 p e) 0)) 16)) hi1.symm

/-- So the result array ends holding the streamed result: the eight flushed blocks cover it. -/
theorem final (c : Dev nD) : (dats m 0 c).arrAt 3 cfg0.N = streamed m c :=
  (dats m 0 c).arrAt_eq_of_cover 3 (streamed m c) (flushed_eq m c) fun i => by
    have hN : cfg0.N = 128 := N_0
    have h0 : (i 0 : Nat) < 16384 := (i 0).isLt
    have h1 : (i 1 : Nat) < 64 := (i 1).isLt
    have ht : 16 * ((i 0 : Nat) / 2048) + 15 < cfg0.N := by rw [hN]; omega
    refine ⟨⟨16 * ((i 0 : Nat) / 2048) + 15, ht⟩, (flush0_3 _).mpr (by show (16 * ((i 0 : Nat) / 2048) + 15) % 16 = 15; omega), ?_⟩
    show i ∈ ((View.whole main_v8).slice (win0_3.rect ⟨16 * ((i 0 : Nat) / 2048) + 15, ht⟩)).set
    rw [View.set_slice_whole, Rect.mem_set_unit]
    intro a
    have hx := out_index ⟨16 * ((i 0 : Nat) / 2048) + 15, ht⟩
    match a with
    | ⟨0, _⟩ =>
      show win0_3.index ⟨16 * ((i 0 : Nat) / 2048) + 15, ht⟩ 0 * 2048 ≤ (i 0 : Nat)
        ∧ (i 0 : Nat) < win0_3.index ⟨16 * ((i 0 : Nat) / 2048) + 15, ht⟩ 0 * 2048 + 2048
      rw [hx.1]
      show (16 * ((i 0 : Nat) / 2048) + 15) / 16 * 2048 ≤ (i 0 : Nat) ∧ (i 0 : Nat) < (16 * ((i 0 : Nat) / 2048) + 15) / 16 * 2048 + 2048
      omega
    | ⟨1, _⟩ =>
      show win0_3.index ⟨16 * ((i 0 : Nat) / 2048) + 15, ht⟩ 1 * 64 ≤ (i 1 : Nat)
        ∧ (i 1 : Nat) < win0_3.index ⟨16 * ((i 0 : Nat) / 2048) + 15, ht⟩ 1 * 64 + 64
      rw [hx.2]; omega

/-- The kernel's run, read: the result array at the streamed result, the five arguments unchanged. -/
theorem run : θ_run defs (onTc (τ := τ) (main (F := Ideal))) ⟨m, fun _ => 0, ρ⟩ fun r => ∀ c : Dev nD,
      r.2.mem ((c : Thread nD τ).loc main_v8) = streamed m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Final

end
-- ==== Proof.LibHostRowMax2.lean ====
/-
  A maximum along the rows of a matrix computed on the host, on the extended reals.

  A reduction by maximum that starts from negative infinity is the supremum of the entries folded into a result
  entry: max is commutative and associative, so the order of the fold is immaterial, and the starting value is the
  least element. This file reads such a reduction of an A × B array over its last axis at row a: the supremum over
  k < B of the entries (a, k), for any extents.
-/
import Idealize.ShloMosaic.PureOps.Ideal.Laws
import Idealize.ShloMosaic.Lib.ValueIdx

noncomputable section

namespace Cert.LibHostRowMax2

open Idealize.ShloMosaic Idealize.ShloMosaic.ValueIdx

/-- Of two axes, the one other than the last is axis 0, whatever the extents. -/
theorem kept_axis1 {A B : Nat} : (⟨2, ![A, B]⟩ : Shape).kept [1] = [0] := by
  show (List.finRange 2).filter (· ∉ ([1] : List (Fin 2))) = [0]
  decide

theorem kept_axis1_fst {A B : Nat} (hh : 0 < ((⟨2, ![A, B]⟩ : Shape).kept [1]).length) :
    ((⟨2, ![A, B]⟩ : Shape).kept [1])[0] = 0 := by
  revert hh; rw [kept_axis1]; intro _; rfl

/-- A host maximum over the last axis of an A × B array, from an initial value that is negative infinity, at row a:
    the supremum over k < B of the entries (a, k). -/
theorem hostReduce_max_rows {A B : Nat} (y : (⟨2, ![A, B]⟩ : Shape).Idx → EReal) {u : Shape}
    (init : u.Idx → EReal) (h' : (⟨2, ![A, B]⟩ : Shape).ReducesTo [1] ⟨1, ![A]⟩) (hu : 0 < u.numel)
    (hinit : init (Shape.Idx.first hu) = ⊥) (a : Fin A) :
    Host.reduce (FloatOps.maximumf (F := Ideal) (φ := .f32)) y init h' hu (ix1 a)
      = (Finset.univ : Finset (Fin B)).sup fun k => y (ix2 a k) := by
  rw [Host.reduce_eq_fold, hinit]
  have hd : ∀ i : (⟨2, ![A, B]⟩ : Shape).Idx, h'.drop i = ix1 (i 0 : Fin A) := fun i => by
    funext b'
    match b' with
    | ⟨0, _⟩ => exact Fin.ext (h'.drop_apply_val_of_eq i 0 0 (by rw [kept_axis1]; exact Nat.zero_lt_one) (kept_axis1_fst _))
  show (Finset.univ.filter fun i => h'.drop i = ix1 a).sup y = _
  apply le_antisymm
  · apply Finset.sup_le
    intro i hi
    have hi2 := (Finset.mem_filter.1 hi).2
    rw [hd] at hi2
    have e0 : (i 0 : Fin A) = a := congrFun hi2 0
    have ei : i = ix2 a (i 1 : Fin B) := by rw [← e0]; exact eq_ix2 i
    rw [ei]
    exact Finset.le_sup (f := fun k : Fin B => y (ix2 a k)) (Finset.mem_univ (i 1 : Fin B))
  · apply Finset.sup_le
    intro k _
    exact Finset.le_sup (f := y) (Finset.mem_filter.2 ⟨Finset.mem_univ _, (hd _).trans rfl⟩)

end Cert.LibHostRowMax2

end
-- ==== Proof.RefSide.lean ====
/-
  The jnp reference, read entry by entry, is the attention row with each weight normalised first.

  The reference projects the queries, keys and values (three products with a 64 × 64 matrix), forms all
  16384 × 16384 scores as the products of a query row with a key row divided by the square root of 64, and applies a
  softmax along each row: it subtracts the row's largest score (taken together with negative infinity), exponentiates,
  sums the row from zero, divides every weight by that sum, and multiplies the normalised weights with the values.
  A quotient by the real number 8 is the product with 1/8 for every extended real, so the scores are the
  specification's scaled scores whatever the arguments are, and every later stage is, index by index, the stage of the
  same name in the specification's row. No finiteness is used.
-/
import proofs.«122753_j60387240182493_2_alg».proof.Proof.Gen.ReferenceIdeal.Read
import proofs.«122753_j60387240182493_2_alg».proof.Proof.Spec
import proofs.«122753_j60387240182493_2_alg».proof.Proof.LibHostRowMax2
import proofs.«122753_j60387240182493_2_alg».proof.Proof.LibRowReduce

noncomputable section

namespace Cert.RefSide

open Cert.ReferenceIdeal Cert.ReferenceIdeal.Gen Cert.ReferenceIdeal.Read Idealize.ShloMosaic Idealize.ShloMosaic.ValueIdx
open Cert.Spec Cert.RowAlgebra
open scoped BigOperators

/-! ## The two literals -/

/-- The f32 word 0x42800000 denotes the real number 64. -/
theorem ofBits_64 : Ideal.ofBits .f32 0x42800000#32 = ((64 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  rw [Ideal.sqrt_coe, if_neg (by norm_num)]
  rw [show (64 : ℝ) = 8 ^ 2 by norm_num, Real.sqrt_sq (by norm_num)]

/-- A quotient by the square root of the word for 64 is the product with one eighth, for every extended real. -/
theorem div_sqrt_64 (x : EReal) :
    Ideal.div x (Ideal.sqrt (Ideal.ofBits .f32 0x42800000#32)) = x * scale := by
  rw [ofBits_64, sqrt_64, Ideal.div_coe (by norm_num)]
  rfl

/-! ## The projections -/

variable (x0 x1 : (⟨S16384x64, .f32⟩ : BufTy).Contents (Elt Ideal))
variable (x2 x3 x4 : (⟨S64x64, .f32⟩ : BufTy).Contents (Elt Ideal))

/-- The queries: entry (r, t) of query · Wq. -/
theorem queries_at (r : Fin 16384) (t : Fin 64) :
    val_main_v0 (F := Ideal) x1 x2 (ix2 r t) = proj x1 x2 r t := by
  rw [val_main_v0_apply]
  exact Finset.sum_congr rfl fun c _ => by
    rw [show lidx_main_v0 (ix2 r t) c = ix2 r c from
          funext fun a => Fin.ext (by match a with | ⟨0, _⟩ => rfl | ⟨1, _⟩ => rfl),
        show ridx_main_v0 (ix2 r t) c = ix2 c t from
          funext fun a => Fin.ext (by match a with | ⟨0, _⟩ => rfl | ⟨1, _⟩ => rfl)]

/-- The keys: entry (j, t) of hidden · Wk. -/
theorem keys_at (j : Fin 16384) (t : Fin 64) :
    val_main_v1 (F := Ideal) x0 x3 (ix2 j t) = proj x0 x3 j t := by
  rw [val_main_v1_apply]
  exact Finset.sum_congr rfl fun c _ => by
    rw [show lidx_main_v1 (ix2 j t) c = ix2 j c from
          funext fun a => Fin.ext (by match a with | ⟨0, _⟩ => rfl | ⟨1, _⟩ => rfl),
        show ridx_main_v1 (ix2 j t) c = ix2 c t from
          funext fun a => Fin.ext (by match a with | ⟨0, _⟩ => rfl | ⟨1, _⟩ => rfl)]

/-- The values: entry (j, e) of hidden · Wv. -/
theorem values_at (j : Fin 16384) (e : Fin 64) :
    val_main_v2 (F := Ideal) x0 x4 (ix2 j e) = proj x0 x4 j e := by
  rw [val_main_v2_apply]
  exact Finset.sum_congr rfl fun c _ => by
    rw [show lidx_main_v2 (ix2 j e) c = ix2 j c from
          funext fun a => Fin.ext (by match a with | ⟨0, _⟩ => rfl | ⟨1, _⟩ => rfl),
        show ridx_main_v2 (ix2 j e) c = ix2 c e from
          funext fun a => Fin.ext (by match a with | ⟨0, _⟩ => rfl | ⟨1, _⟩ => rfl)]

/-! ## The scores -/

/-- Entry (r, j) of the score matrix: the scaled score of key row j against query row r. -/
theorem score_at (r j : Fin 16384) :
    val_main_v6 (F := Ideal) x0 x1 x2 x3 (ix2 r j) = score scale (proj x1 x2 r) (proj x0 x3) j := by
  rw [val_main_v6_apply, val_main_v3_apply, val_main_v5_apply, val_main_v4_apply, val_main_cst_apply]
  refine (div_sqrt_64 _).trans ?_
  unfold score
  refine congrArg (· * scale) (Finset.sum_congr rfl fun t _ => ?_)
  rw [show lidx_main_v3 (ix2 r j) t = ix2 r t from
        funext fun a => Fin.ext (by match a with | ⟨0, _⟩ => rfl | ⟨1, _⟩ => rfl),
      show ridx_main_v3 (ix2 r j) t = ix2 j t from
        funext fun a => Fin.ext (by match a with | ⟨0, _⟩ => rfl | ⟨1, _⟩ => rfl),
      queries_at, keys_at]

/-! ## The top of a row -/

/-- Row r of the row maxima, taken together with negative infinity. -/
theorem top_at (r : Fin 16384) :
    val_main_v9 (F := Ideal) x0 x1 x2 x3 (ix1 r) = max ⊥ (top (score scale (proj x1 x2 r) (proj x0 x3))) := by
  rw [val_main_v9_apply, val_main_v8_apply, val_main_cst_1_apply]
  show max (Ideal.ofBits .f32 0xFF800000#32) (val_main_v7 (F := Ideal) x0 x1 x2 x3 (ix1 r)) = _
  rw [Cert.LibRowReduce.ofBits_neg_inf]
  refine congrArg (max ⊥) ?_
  unfold val_main_v7
  refine (Cert.LibHostRowMax2.hostReduce_max_rows (A := 16384) (B := 16384) _ _ _ _
    (show val_main_cst_0 (F := Ideal) (Shape.Idx.first h_S_) = ⊥ from Cert.LibRowReduce.ofBits_neg_inf) r).trans ?_
  unfold top
  exact Finset.sup_congr rfl fun j _ => score_at x0 x1 x2 x3 r j

/-! ## The weights and their total -/

/-- Entry (r, j) of the exponentials: the weight of key j in row r. -/
theorem weight_at (r j : Fin 16384) :
    val_main_v13 (F := Ideal) x0 x1 x2 x3 (ix2 r j)
      = Ideal.exp (score scale (proj x1 x2 r) (proj x0 x3) j
          - max ⊥ (top (score scale (proj x1 x2 r) (proj x0 x3)))) := by
  rw [val_main_v13_apply, val_main_v12_apply, val_main_v11_apply, val_main_v10_apply, score_at]
  rw [show idx_main_v10 (idx_main_v11 (ix2 r j)) = ix1 r from
        funext fun a => Fin.ext (by match a with | ⟨0, _⟩ => rfl), top_at]
  rfl

/-- Row r of the row sums: zero plus the total weight of the row. -/
theorem total_at (r : Fin 16384) :
    val_main_v14 (F := Ideal) x0 x1 x2 x3 (ix1 r)
      = 0 + ∑ j : Fin 16384, Ideal.exp (score scale (proj x1 x2 r) (proj x0 x3) j
          - max ⊥ (top (score scale (proj x1 x2 r) (proj x0 x3)))) := by
  rw [val_main_v14_apply, val_main_cst_2_apply]
  show Ideal.ofBits .f32 0x00000000#32 + _ = _
  rw [Ideal.ofBits_zero_f32]
  refine congrArg (0 + ·) (Finset.sum_congr rfl fun j _ => ?_)
  rw [show idx_main_v14 (ix1 r) j = ix2 r j from
        funext fun a => Fin.ext (by match a with | ⟨0, _⟩ => rfl | ⟨1, _⟩ => rfl), weight_at]

/-- Entry (r, j) of the softmax: the weight divided by the row's total. -/
theorem softmax_at (r j : Fin 16384) :
    val_main_v17 (F := Ideal) x0 x1 x2 x3 (ix2 r j)
      = Ideal.div (Ideal.exp (score scale (proj x1 x2 r) (proj x0 x3) j
            - max ⊥ (top (score scale (proj x1 x2 r) (proj x0 x3)))))
          (0 + ∑ j' : Fin 16384, Ideal.exp (score scale (proj x1 x2 r) (proj x0 x3) j'
            - max ⊥ (top (score scale (proj x1 x2 r) (proj x0 x3))))) := by
  rw [val_main_v17_apply, val_main_v16_apply, val_main_v15_apply, weight_at]
  rw [show idx_main_v15 (idx_main_v16 (ix2 r j)) = ix1 r from
        funext fun a => Fin.ext (by match a with | ⟨0, _⟩ => rfl), total_at]
  rfl

/-! ## The result -/

/-- Entry (r, e) of the reference's result is the specification's row with each weight normalised first. -/
theorem result_at (r : Fin 16384) (e : Fin 64) :
    val_main_v18 (F := Ideal) x0 x1 x2 x3 x4 (ix2 r e) = attnEach x0 x1 x2 x3 x4 r e := by
  rw [val_main_v18_apply]
  unfold attnEach rowEach
  refine Finset.sum_congr rfl fun j _ => ?_
  rw [show lidx_main_v18 (ix2 r e) j = ix2 r j from
        funext fun a => Fin.ext (by match a with | ⟨0, _⟩ => rfl | ⟨1, _⟩ => rfl),
      show ridx_main_v18 (ix2 r e) j = ix2 j e from
        funext fun a => Fin.ext (by match a with | ⟨0, _⟩ => rfl | ⟨1, _⟩ => rfl),
      softmax_at, values_at]

/-- The reference's result array is the specification's, entry by entry (hidden, query, Wq, Wk, Wv in this order). -/
theorem ref_eq :
    val_main_v18 (F := Ideal) x0 x1 x2 x3 x4 = fun i => attnEach x0 x1 x2 x3 x4 (i 0) (i 1) := by
  funext i
  obtain ⟨r, e, rfl⟩ : ∃ (r : Fin 16384) (e : Fin 64), i = ix2 r e := ⟨i 0, i 1, eq_ix2 i⟩
  exact result_at x0 x1 x2 x3 x4 r e

end Cert.RefSide

end
-- ==== Proof.LibRealEntry.lean ====
/-
  The entry fact behind a "every input is finite" precondition, at the ideal values: the precondition compares each
  entry's absolute value with the float word of +infinity by "less than"; an extended real that passes is a real
  number. Independent of any program: use it on each entry after the precondition's conjunction and its
  all-reductions have been opened.
-/
import Idealize.ShloMosaic.PureOps.Ideal

noncomputable section

namespace Cert.LibRealEntry

open Idealize.ShloMosaic

/-- The f32 word 0x7F800000 denotes +infinity. -/
theorem inf_word : Ideal.ofBits .f32 0x7F800000#32 = (⊤ : EReal) := by
  simp [Ideal.ofBits, Ideal.ieee]

/-- An extended real whose absolute value `max x (-x)` compares below the word of +infinity is a real number:
    the absolute value of either infinity is +infinity. -/
theorem real_of_abs_lt_inf (x : EReal)
    (h : Ideal.cmp .olt (max x (-x)) (Ideal.ofBits .f32 0x7F800000#32) = 1#1) : ∃ r : ℝ, x = r := by
  rw [inf_word] at h
  have h' : max x (-x) < ⊤ := by
    by_contra hn
    simp [Ideal.cmp, hn] at h
  induction x using EReal.rec with
  | bot => simp at h'
  | coe r => exact ⟨r, rfl⟩
  | top => simp at h'

end Cert.LibRealEntry
-- ==== Proof.Finite.lean ====
/-
  From the precondition to "every entry of every argument is a real number".

  The precondition compares the absolute value of each entry of each of the five arrays with the word of +infinity,
  takes the conjunction over all the entries of each array, and the conjunction of the five results; it states that
  the final bit is one. A conjunction that is one has both operands one, a conjunction over all entries that is one
  has every entry one, and an extended real whose absolute value lies below +infinity is neither infinity.
-/
import proofs.«122753_j60387240182493_2_alg».proof.Defs
import proofs.«122753_j60387240182493_2_alg».proof.Proof.LibRealEntry
import Idealize.ShloMosaic.Lib.ReduceAll
import Idealize.ShloMosaic.Lib.ValueIdx

noncomputable section

namespace Cert.Finite

open Idealize.ShloMosaic Idealize.SL.Sem Cert.Pre_finite_inputs

/-- The shape with no axes has one index. -/
instance : Subsingleton S_.Idx := ⟨fun _ _ => funext fun d => d.elim0⟩

/-- One array's share of the precondition: when the conjunction over all entries of "the absolute value compares
    below the word of +infinity" is one, every entry is a real number. -/
theorem real_of_all {s : Shape} (x : FVec Ideal s .f32) (hb : S_.BroadcastsInDim s (![] : Fin 0 → Fin s.rank))
    {axes : List (Fin s.rank)} (h' : s.ReducesTo axes S_) (hu : 0 < S_.numel) (j : S_.Idx)
    (e : Host.reduce IntOp.andi
          (cmpf .olt (Host.absf x) (broadcastInDim s ![] hb (constant (F := Ideal) S_ .f32 0x7F800000#32)))
          (constantI S_ 1 1#1) h' hu j = 1#1) (i : s.Idx) : ∃ r : ℝ, x i = (r : EReal) :=
  Cert.LibRealEntry.real_of_abs_lt_inf (x i) (Host.reduce_andi_all _ _ h' hu j e i)

/-- When the precondition's value on five arrays is all ones, every entry of each of them is a real number. -/
theorem inputs_real [Cert.Pre_finite_inputs.Facts] (a0 a1 : FVec Ideal S16384x64 .f32) (a2 a3 a4 : FVec Ideal S64x64 .f32)
    (h : fn (F := Ideal) a0 a1 a2 a3 a4 = fun _ => 1#1) :
    (∀ i, ∃ x : ℝ, a0 i = (x : EReal)) ∧ (∀ i, ∃ x : ℝ, a1 i = (x : EReal)) ∧ (∀ i, ∃ x : ℝ, a2 i = (x : EReal))
      ∧ (∀ i, ∃ x : ℝ, a3 i = (x : EReal)) ∧ (∀ i, ∃ x : ℝ, a4 i = (x : EReal)) := by
  have h0 := congrFun h ValueIdx.ix0
  dsimp only [fn, fn_part1] at h0
  obtain ⟨h1, e4⟩ := IntOp.andi_eq_one.1 h0
  obtain ⟨h2, e3⟩ := IntOp.andi_eq_one.1 h1
  obtain ⟨h3, e2⟩ := IntOp.andi_eq_one.1 h2
  obtain ⟨e0, e1⟩ := IntOp.andi_eq_one.1 h3
  exact ⟨real_of_all a0 _ _ _ _ e0, real_of_all a1 _ _ _ _ e1, real_of_all a2 _ _ _ _ e2,
    real_of_all a3 _ _ _ _ e3, real_of_all a4 _ _ _ _ e4⟩

/-- Under the kernel's precondition every entry of each of its five argument arrays is a real number. -/
theorem args_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, (m ((c.tc : Thread Cert.KernelIdeal.nD Cert.KernelIdeal.τ).loc Cert.KernelIdeal.main_arg0) : FVec Ideal S16384x64 .f32) i = (x : EReal))
      ∧ (∀ i, ∃ x : ℝ, (m ((c.tc : Thread Cert.KernelIdeal.nD Cert.KernelIdeal.τ).loc Cert.KernelIdeal.main_arg1) : FVec Ideal S16384x64 .f32) i = (x : EReal))
      ∧ (∀ i, ∃ x : ℝ, (m ((c.tc : Thread Cert.KernelIdeal.nD Cert.KernelIdeal.τ).loc Cert.KernelIdeal.main_arg2) : FVec Ideal S64x64 .f32) i = (x : EReal))
      ∧ (∀ i, ∃ x : ℝ, (m ((c.tc : Thread Cert.KernelIdeal.nD Cert.KernelIdeal.τ).loc Cert.KernelIdeal.main_arg3) : FVec Ideal S64x64 .f32) i = (x : EReal))
      ∧ (∀ i, ∃ x : ℝ, (m ((c.tc : Thread Cert.KernelIdeal.nD Cert.KernelIdeal.τ).loc Cert.KernelIdeal.main_arg4) : FVec Ideal S64x64 .f32) i = (x : EReal)) :=
  inputs_real _ _ _ _ _ (h c)

end Cert.Finite

end
-- ==== Proof.Claims.lean ====
/-
  The five conjuncts.

  The three frames are the generated ones (the reference's is its generated run with the result dropped); the ideal
  pass rewrote nothing, so there is nothing to preserve. For the value claim: the kernel's run leaves, at result entry
  (r, e), the streamed quotient of query row r over the sixteen key tiles; the reference's run leaves the softmax row
  with every weight normalised before the value rows are combined. The precondition makes every argument entry a real
  number, and on real numbers both are the weighted sum of the value rows divided once by the total weight.
-/
import proofs.«122753_j60387240182493_2_alg».proof.Defs
import proofs.«122753_j60387240182493_2_alg».proof.Proof.Gen.Kernel
import proofs.«122753_j60387240182493_2_alg».proof.Proof.Gen.KernelIdeal
import proofs.«122753_j60387240182493_2_alg».proof.Proof.Gen.ReferenceIdeal
import proofs.«122753_j60387240182493_2_alg».proof.Proof.Gen.Pre_finite_inputs
import proofs.«122753_j60387240182493_2_alg».proof.Proof.Gen.Kernel.Frame
import proofs.«122753_j60387240182493_2_alg».proof.Proof.Gen.KernelIdeal.Frame
import proofs.«122753_j60387240182493_2_alg».proof.Proof.Gen.ReferenceIdeal.Run
import proofs.«122753_j60387240182493_2_alg».proof.Proof.Gen.ReferenceIdeal.Read
import proofs.«122753_j60387240182493_2_alg».proof.Proof.Final
import proofs.«122753_j60387240182493_2_alg».proof.Proof.RefSide
import proofs.«122753_j60387240182493_2_alg».proof.Proof.Finite
import proofs.«122753_j60387240182493_2_alg».proof.Proof.EntryBridge
import proofs.«122753_j60387240182493_2_alg».proof.Proof.Spec

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- With real arguments the streamed quotient is the reference's softmax row, entry by entry. -/
theorem streamed_eq_each (H Q : Cert.Spec.Big.Idx → EReal) (Wq Wk Wv : Cert.Spec.Sq.Idx → EReal)
    (hH : ∀ i, ∃ x : ℝ, H i = (x : EReal)) (hQ : ∀ i, ∃ x : ℝ, Q i = (x : EReal)) (hWq : ∀ i, ∃ x : ℝ, Wq i = (x : EReal))
    (hWk : ∀ i, ∃ x : ℝ, Wk i = (x : EReal)) (hWv : ∀ i, ∃ x : ℝ, Wv i = (x : EReal)) (r : Fin 16384) (e : Fin 64) :
    Cert.Spec.attnEach H Q Wq Wk Wv r e
      = Ideal.div (Cert.Stream.runA (Cert.Bridge.kScore H Q Wq Wk r) (Cert.Bridge.kVal H Wv e) 16)
          (Cert.Stream.runL (Cert.Bridge.kScore H Q Wq Wk r) 16) := by
  rw [← Cert.Spec.attnOnce_eq_attnEach H Q Wq Wk Wv hH hQ hWq hWk hWv r e,
    Cert.Bridge.stream_entry H Q Wq Wk Wv hH hQ hWq hWk hWv r e]

/-- The two idealized programs, from memories that agree on the arguments, end with the same result array. -/
theorem algebraic : Cert.algebraic_KernelIdeal_ReferenceIdeal := by
  intro m ρ m' ρ' hpre hagree
  refine ⟨fun c => Cert.KernelIdeal.Final.streamed m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  obtain ⟨hH, hQ, hWq, hWk, hWv⟩ := Cert.Finite.args_real m hpre c
  rw [a0, a1, a2, a3, a4]
  refine (Cert.RefSide.ref_eq _ _ _ _ _).trans ?_
  funext i
  exact streamed_eq_each _ _ _ _ _ hH hQ hWq hWk hWv (i 0) (i 1)

end Cert.Proof.Claims

end
-- ==== Proof.lean ====
/-
  The certificate's claim, assembled: the programs' stated side conditions are witnessed by the generated facts, and the
  five conjuncts — the three frames, the (empty) preservation statement and the equality of the two idealized
  programs' results on the extended reals — are proved in Proof/Claims.lean.
-/
import proofs.«122753_j60387240182493_2_alg».proof.Defs
import proofs.«122753_j60387240182493_2_alg».proof.Proof.Gen.Kernel
import proofs.«122753_j60387240182493_2_alg».proof.Proof.Gen.Kernel.Skeleton
import proofs.«122753_j60387240182493_2_alg».proof.Proof.Gen.Kernel.Launch
import proofs.«122753_j60387240182493_2_alg».proof.Proof.Gen.Kernel.Points
import proofs.«122753_j60387240182493_2_alg».proof.Proof.Gen.Kernel.Frame
import proofs.«122753_j60387240182493_2_alg».proof.Proof.Gen.KernelIdeal
import proofs.«122753_j60387240182493_2_alg».proof.Proof.Gen.KernelIdeal.Skeleton
import proofs.«122753_j60387240182493_2_alg».proof.Proof.Gen.KernelIdeal.Launch
import proofs.«122753_j60387240182493_2_alg».proof.Proof.Gen.KernelIdeal.Points
import proofs.«122753_j60387240182493_2_alg».proof.Proof.Gen.KernelIdeal.Frame
import proofs.«122753_j60387240182493_2_alg».proof.Proof.Gen.ReferenceIdeal
import proofs.«122753_j60387240182493_2_alg».proof.Proof.Gen.Pre_finite_inputs
import proofs.«122753_j60387240182493_2_alg».proof.Proof.Gen.KernelIdeal.Value
import proofs.«122753_j60387240182493_2_alg».proof.Proof.Gen.ReferenceIdeal.Run
import proofs.«122753_j60387240182493_2_alg».proof.Proof.Gen.ReferenceIdeal.Read
import proofs.«122753_j60387240182493_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
